-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S64x32 .f32) (main_arg9 : FVec F S32 .f32) (main_arg10 : FVec F S32x1 .f32) (main_arg11 : FVec F S1 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg10
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S64x64 .f32) (main_arg6 : FVec F S64 .f32) (main_arg7 : FVec F S64x64 .f32) (main_arg8 : FVec F S64x32 .f32) (main_arg9 : FVec F S32 .f32) (main_arg10 : FVec F S32x1 .f32) (main_arg11 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x32 .f32) (main_arg9 : FVec F S32 .f32) (main_arg10 : FVec F S32x1 .f32) (main_arg11 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S10000x64 : Shape := ⟨2, ![10000, 64]⟩
abbrev S10000x1 : Shape := ⟨2, ![10000, 1]⟩
abbrev S1x32 : Shape := ⟨2, ![1, 32]⟩
abbrev S1x1 : Shape := ⟨2, ![1, 1]⟩
abbrev S5000x64 : Shape := ⟨2, ![5000, 64]⟩
abbrev S5000x1 : Shape := ⟨2, ![5000, 1]⟩
abbrev S5000x32 : Shape := ⟨2, ![5000, 32]⟩

abbrev nBuf : Space → Nat
  | .hbm => 63
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000x1, .f32⟩
  | .hbm, ⟨18, _⟩ => ⟨S_, .f32⟩
  | .hbm, ⟨19, _⟩ => ⟨S100000x1, .f32⟩
  | .hbm, ⟨20, _⟩ => ⟨S1600000x1, .i32⟩
  | .hbm, ⟨21, _⟩ => ⟨S100000x1, .f32⟩
  | .hbm, ⟨22, _⟩ => ⟨S_, .f32⟩
  | .hbm, ⟨23, _⟩ => ⟨S100000x1, .f32⟩
  | .hbm, ⟨24, _⟩ => ⟨S100000x1, .f32⟩
  | .hbm, ⟨25, _⟩ => ⟨S_, .f32⟩
  | .hbm, ⟨26, _⟩ => ⟨S100000x1, .f32⟩
  | .hbm, ⟨27, _⟩ => ⟨S100000x1, .f32⟩
  | .hbm, ⟨28, _⟩ => ⟨S100000x64, .bf16⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .bf16⟩
  | .hbm, ⟨38, _⟩ => ⟨S1600000x64, .f32⟩
  | .hbm, ⟨39, _⟩ => ⟨S_, .f32⟩
  | .hbm, ⟨40, _⟩ => ⟨S100000x64, .f32⟩
  | .hbm, ⟨41, _⟩ => ⟨S1600000x1, .i32⟩
  | .hbm, ⟨42, _⟩ => ⟨S100000x64, .f32⟩
  | .hbm, ⟨43, _⟩ => ⟨S1x64, .f32⟩
  | .hbm, ⟨44, _⟩ => ⟨S100000x64, .bf16⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .bf16⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S1x64, .f32⟩
  | .hbm, ⟨60, _⟩ => ⟨S1x32, .f32⟩
  | .hbm, ⟨61, _⟩ => ⟨S1x1, .f32⟩
  | .hbm, ⟨62, _⟩ => ⟨S100000x1, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .bf16⟩
  | .local _ .vmem, ⟨5, _⟩ => ⟨S10000x64, .bf16⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S10000x64, .bf16⟩
  | .local _ .vmem, ⟨10, _⟩ => ⟨S10000x64, .bf16⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .bf16⟩
  | .local _ .vmem, ⟨16, _⟩ => ⟨S5000x64, .bf16⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S64x32, .f32⟩
  | .local _ .vmem, ⟨21, _⟩ => ⟨S1x32, .f32⟩
  | .local _ .vmem, ⟨22, _⟩ => ⟨S32x1, .f32⟩
  | .local _ .vmem, ⟨23, _⟩ => ⟨S1x1, .f32⟩
  | .local _ .vmem, ⟨24, _⟩ => ⟨S5000x1, .f32⟩
  | .local _ .vmem, ⟨25, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg10_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S32x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bitsLt_bf16_f32 : FTy.bits .bf16 < FTy.bits .f32
  bcast_S_S1600000 : S_.BroadcastsInDim S1600000 (![] : Fin 0 → Fin S1600000.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  packedbf16_S10000x64_S10000x64_0_0 : (Rect.unit (s := S10000x64) ![0, 0] S10000x64.size inb_S10000x64_S10000x64_0_0).PackedRows (EltTy.packing .bf16)
  shapeCasts_S32_S1x32 : S32.ShapeCasts S1x32
  shapeCasts_S1_S1x1 : S1.ShapeCasts S1x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000x1_S1600000x1_S1600000x1_1_0_0_1_wf : ScatterDims.WF S100000x1 S1600000x1 S1600000x1 [1] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S100000x64.size a
  hwx0_6 : ∀ i : grid0.Coords, EltTy.bits .bf16 = 32 ∨ (Rect.block (s := S100000x64) S10000x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .bf16 = 32 ∨ (Rect.block (s := S100000x64) S5000x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x32.size a ≤ S64x32.size a
  hwx1_6 : ∀ i : grid1.Coords, EltTy.bits .f32 = 32 ∨ (Rect.block (s := S64x32) S64x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32.size a ≤ S1x32.size a
  hwx1_7 : ∀ i : grid1.Coords, EltTy.bits .f32 = 32 ∨ (Rect.block (s := S1x32) S1x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S32x1.size a ≤ S32x1.size a
  hwx1_8 : ∀ i : grid1.Coords, EltTy.bits .f32 = 32 ∨ (Rect.block (s := S32x1) S32x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x1.size a ≤ S100000x1.size a
  hwx1_10 : ∀ i : grid1.Coords, EltTy.bits .f32 = 32 ∨ (Rect.block (s := S100000x1) S5000x1.size (cc1_transform_10 i) (hinb1_10 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_v23) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S10000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S64x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38) S1x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S32x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v39) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v40) S5000x1.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩
abbrev S1x1 : Shape := ⟨2, ![1, 1]⟩

abbrev nBuf : Space → Nat
  | .hbm => 101
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x32, .f32⟩
  | .hbm, ⟨9, _⟩ => ⟨S32, .f32⟩
  | .hbm, ⟨10, _⟩ => ⟨S32x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x64, .f32⟩
  | .hbm, ⟨25, _⟩ => ⟨S_, .f32⟩
  | .hbm, ⟨26, _⟩ => ⟨S100000x64, .f32⟩
  | .hbm, ⟨27, _⟩ => ⟨S1600000x1, .i32⟩
  | .hbm, ⟨28, _⟩ => ⟨S100000x64, .f32⟩
  | .hbm, ⟨29, _⟩ => ⟨S_, .f32⟩
  | .hbm, ⟨30, _⟩ => ⟨S1600000x1, .f32⟩
  | .hbm, ⟨31, _⟩ => ⟨S_, .f32⟩
  | .hbm, ⟨32, _⟩ => ⟨S100000x1, .f32⟩
  | .hbm, ⟨33, _⟩ => ⟨S1600000x1, .i32⟩
  | .hbm, ⟨34, _⟩ => ⟨S100000x1, .f32⟩
  | .hbm, ⟨35, _⟩ => ⟨S_, .f32⟩
  | .hbm, ⟨36, _⟩ => ⟨S100000x1, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S_, .f32⟩
  | .hbm, ⟨63, _⟩ => ⟨S1600000x1, .f32⟩
  | .hbm, ⟨64, _⟩ => ⟨S_, .f32⟩
  | .hbm, ⟨65, _⟩ => ⟨S100000x1, .f32⟩
  | .hbm, ⟨66, _⟩ => ⟨S1600000x1, .i32⟩
  | .hbm, ⟨67, _⟩ => ⟨S100000x1, .f32⟩
  | .hbm, ⟨68, _⟩ => ⟨S_, .f32⟩
  | .hbm, ⟨69, _⟩ => ⟨S100000x1, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S100000x64, .f32⟩
  | .hbm, ⟨81, _⟩ => ⟨S100000x64, .f32⟩
  | .hbm, ⟨82, _⟩ => ⟨S100000x32, .f32⟩
  | .hbm, ⟨83, _⟩ => ⟨S1x32, .f32⟩
  | .hbm, ⟨84, _⟩ => ⟨S100000x32, .f32⟩
  | .hbm, ⟨85, _⟩ => ⟨S100000x32, .f32⟩
  | .hbm, ⟨86, _⟩ => ⟨S_, .f32⟩
  | .hbm, ⟨87, _⟩ => ⟨S100000x32, .f32⟩
  | .hbm, ⟨88, _⟩ => ⟨S100000x32, .f32⟩
  | .hbm, ⟨89, _⟩ => ⟨S100000x1, .f32⟩
  | .hbm, ⟨90, _⟩ => ⟨S1x1, .f32⟩
  | .hbm, ⟨91, _⟩ => ⟨S100000x1, .f32⟩
  | .hbm, ⟨92, _⟩ => ⟨S100000x1, .f32⟩
  | .hbm, ⟨93, _⟩ => ⟨S100000x1, .f32⟩
  | .hbm, ⟨94, _⟩ => ⟨S100000x1, .f32⟩
  | .hbm, ⟨95, _⟩ => ⟨S_, .f32⟩
  | .hbm, ⟨96, _⟩ => ⟨S100000x1, .f32⟩
  | .hbm, ⟨97, _⟩ => ⟨S100000x1, .f32⟩
  | .hbm, ⟨98, _⟩ => ⟨S_, .f32⟩
  | .hbm, ⟨99, _⟩ => ⟨S100000x1, .f32⟩
  | .hbm, ⟨100, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call0_cst : Ref sig .tc := ⟨.hbm, 46, rfl⟩
abbrev main_call0_v0 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call1_cst : Ref sig .tc := ⟨.hbm, 79, rfl⟩
abbrev main_call1_v0 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call2_cst : Ref sig .tc := ⟨.hbm, 86, rfl⟩
abbrev main_call2_v0 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_10 : Ref sig .tc := ⟨.hbm, 95, rfl⟩
abbrev main_v65 : Ref sig .tc := ⟨.hbm, 96, rfl⟩
abbrev main_v66 : Ref sig .tc := ⟨.hbm, 97, rfl⟩
abbrev main_cst_11 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.KernelRun.lean ====
/-
  The idealized kernel's run with its result named.

  @main is four segments: the host operations up to the first pallas_call, that call, the host operations between the
  two calls, and the second call. The buffer contents at each boundary are a fold from the launch memory, and the last
  boundary's contents are what every weakly fair execution ends with at every unscoped buffer. Read at the result
  buffer, that is the second call's output array after all its write-backs; read at an argument, it is the launch
  contents. This module states that run once, for the value proof to build on.
-/
import proofs.«178451_j58016418234844_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds the last boundary's
    contents, and every argument its launch contents. -/
theorem run_result : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.RunValue

end
-- ==== Proof.LibPlainMatmul.lean ====
/-
  A plain matrix product into a zero accumulator, read at an entry.

  For a dot whose dimension numbers contract the left operand's columns against the right operand's rows, with no batch
  axis — `[M, K] × [K, N] → [M, N]` — the product accumulated into the zero splat is, at the extended reals, the
  textbook sum: entry `(p, c)` is the sum over `k` of `lhs (p, k) · rhs (k, c)`. The dimension numbers enter only
  through four coordinate facts about the dot's operand indices (which a literal record proves by evaluating its
  membership tests) and the fact that exactly one axis, of extent `K`, is contracted; the lemma is general in the
  extents, the element types and the contraction precision, so it serves every such product of a kernel body.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

/-- Entry `(p, c)` of `lhs · rhs` accumulated into zero is `Σ k, lhs (p, k) · rhs (k, c)`: the dot's sum over its
    one-axis contraction index, re-indexed along the bijection of that index with `Fin K`, each operand index then
    identified by its two coordinates. -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    matmul D prec lhs rhs (constant ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainMatmul

end
-- ==== Proof.MatmulEntries.lean ====
/-
  The kernel bodies' four matrix products, each read at one entry.

  Every product contracts the left operand's columns against the right operand's rows, with no batch axis, into a
  zero accumulator: entry `(p, c)` is the sum over `k` of `lhs (p, k) · rhs (k, c)`. Per product, four coordinate
  facts about its operand indices (decided from the record's literal axis lists) feed the general statement.
-/
import proofs.«178451_j58016418234844_2_alg».proof.Proof.Gen.KernelIdeal
import proofs.«178451_j58016418234844_2_alg».proof.Proof.LibPlainMatmul

noncomputable section

namespace Cert.KernelIdeal.Entry

open Cert.KernelIdeal Idealize.ShloMosaic Idealize.ShloMosaic.ValueIdx
open scoped BigOperators

/-- A `[10000, 64] × [64, 64]` product into zero at `(p, c)`. -/
theorem matmul_tile1 {φ₁ φ₂ : FTy} (lhs : FVec Ideal S10000x64 φ₁) (rhs : FVec Ideal S64x64 φ₂) (p : Fin 10000) (c : Fin 64) :
    matmul dot_S10000x64_S64x64_S10000x64_1_0_0_1_n_n none lhs rhs (constant S10000x64 .f32 0x00000000#32) (ix2 p c)
      = ∑ k : Fin 64, lhs (ix2 p k) * rhs (ix2 k c) :=
  Cert.LibPlainMatmul.matmul_zero_ix2 dot_S10000x64_S64x64_S10000x64_1_0_0_1_n_n none rfl rfl
    (fun i q => by
      unfold DotDims.lhsIdx
      rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
      rfl)
    (fun i q => dot_S10000x64_S64x64_S10000x64_1_0_0_1_n_n.lhsIdx_val_of_single rfl i q)
    (fun i q => dot_S10000x64_S64x64_S10000x64_1_0_0_1_n_n.rhsIdx_val_of_single rfl i q)
    (fun i q => by
      unfold DotDims.rhsIdx
      rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
      rfl)
    lhs rhs p c

/-- A `[5000, 64] × [64, 64]` product into zero at `(p, c)`. -/
theorem matmul_tile2 {φ₁ φ₂ : FTy} (lhs : FVec Ideal S5000x64 φ₁) (rhs : FVec Ideal S64x64 φ₂) (p : Fin 5000) (c : Fin 64) :
    matmul dot_S5000x64_S64x64_S5000x64_1_0_0_1_n_n none lhs rhs (constant S5000x64 .f32 0x00000000#32) (ix2 p c)
      = ∑ k : Fin 64, lhs (ix2 p k) * rhs (ix2 k c) :=
  Cert.LibPlainMatmul.matmul_zero_ix2 dot_S5000x64_S64x64_S5000x64_1_0_0_1_n_n none rfl rfl
    (fun i q => by
      unfold DotDims.lhsIdx
      rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
      rfl)
    (fun i q => dot_S5000x64_S64x64_S5000x64_1_0_0_1_n_n.lhsIdx_val_of_single rfl i q)
    (fun i q => dot_S5000x64_S64x64_S5000x64_1_0_0_1_n_n.rhsIdx_val_of_single rfl i q)
    (fun i q => by
      unfold DotDims.rhsIdx
      rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
      rfl)
    lhs rhs p c

/-- A `[5000, 64] × [64, 32]` product into zero at `(p, c)`. -/
theorem matmul_hidden {φ₁ φ₂ : FTy} (lhs : FVec Ideal S5000x64 φ₁) (rhs : FVec Ideal S64x32 φ₂) (p : Fin 5000) (c : Fin 32) :
    matmul dot_S5000x64_S64x32_S5000x32_1_0_0_1_n_n none lhs rhs (constant S5000x32 .f32 0x00000000#32) (ix2 p c)
      = ∑ k : Fin 64, lhs (ix2 p k) * rhs (ix2 k c) :=
  Cert.LibPlainMatmul.matmul_zero_ix2 dot_S5000x64_S64x32_S5000x32_1_0_0_1_n_n none rfl rfl
    (fun i q => by
      unfold DotDims.lhsIdx
      rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
      rfl)
    (fun i q => dot_S5000x64_S64x32_S5000x32_1_0_0_1_n_n.lhsIdx_val_of_single rfl i q)
    (fun i q => dot_S5000x64_S64x32_S5000x32_1_0_0_1_n_n.rhsIdx_val_of_single rfl i q)
    (fun i q => by
      unfold DotDims.rhsIdx
      rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
      rfl)
    lhs rhs p c

/-- A `[5000, 32] × [32, 1]` product into zero at `(p, c)`. -/
theorem matmul_logit {φ₁ φ₂ : FTy} (lhs : FVec Ideal S5000x32 φ₁) (rhs : FVec Ideal S32x1 φ₂) (p : Fin 5000) (c : Fin 1) :
    matmul dot_S5000x32_S32x1_S5000x1_1_0_0_1_n_n none lhs rhs (constant S5000x1 .f32 0x00000000#32) (ix2 p c)
      = ∑ k : Fin 32, lhs (ix2 p k) * rhs (ix2 k c) :=
  Cert.LibPlainMatmul.matmul_zero_ix2 dot_S5000x32_S32x1_S5000x1_1_0_0_1_n_n none rfl rfl
    (fun i q => by
      unfold DotDims.lhsIdx
      rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
      rfl)
    (fun i q => dot_S5000x32_S32x1_S5000x1_1_0_0_1_n_n.lhsIdx_val_of_single rfl i q)
    (fun i q => dot_S5000x32_S32x1_S5000x1_1_0_0_1_n_n.rhsIdx_val_of_single rfl i q)
    (fun i q => by
      unfold DotDims.rhsIdx
      rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
      rfl)
    lhs rhs p c

end Cert.KernelIdeal.Entry

end
-- ==== Proof.LibColumn.lean ====
/-
  Column forms of the layout operations, read at an index written by coordinates.

  A sum along the rows of an `[a, b]` array taken with the reduced axis kept leaves an `[a]` vector that is
  re-laid as an `[a, 1]` column and then spread back over the `b` columns. These are the two readings that
  step needs: the column at `(i, u)` is the vector at `i`, and the spread column at `(p, c)` is the column at
  `(p, 0)`, whatever the extents. They complement the row forms (`[a] → [1, a]`, `[1, b] → [a, b]`) of the
  library's layout lemmas.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Network.lean ====
/-
  A two-layer mean-aggregating graph network with a two-layer read-out, node by node, over the extended reals.

  Each graph layer sends a node's feature row `x r` and the mean `μ r` of its in-neighbours' rows to
  `max (μ r · Wl + b + x r · Wr) 0`; the read-out sends the second layer's row `h r` to
  `logistic (max (h r · Wf1 + bf1) 0 · Wf2 + bf2)`. Every output entry depends on ONE row of the node arrays, which is
  why a tiling of the nodes computes the same array as one pass over all of them (`convAt_congr`, `readoutAt_congr`).

  The mean is the neighbour sum over the clamped in-degree `c = max deg 1`. It may be formed by dividing the sum by
  `c` or by multiplying it with the precomputed reciprocal `1 / c`; off `c = 0` — and `c ≥ 1` — these are one
  extended real, the sum times `c⁻¹`, whether or not the sum is finite (`meanMul_eq_meanDiv`).
-/
import Idealize.ShloMosaic.PureOps.Ideal.Laws
import Idealize.ShloMosaic.Lib.ValueIdx

noncomputable section

namespace Cert.Sage

open Idealize.ShloMosaic Idealize.ShloMosaic.ValueIdx
open scoped BigOperators

/-- An `[n, k]` array of extended reals. -/
abbrev Arr (n k : ℕ) : Type := (⟨2, ![n, k]⟩ : Shape).Idx → EReal

/-- The array whose entry at row `r`, column `o` is `f r o`. -/
def ofEntries {n k : ℕ} (f : Fin n → Fin k → EReal) : Arr n k :=
  fun j => f ⟨(j 0).val, idx2_lt0 j⟩ ⟨(j 1).val, idx2_lt1 j⟩

theorem ofEntries_ix2 {n k : ℕ} (f : Fin n → Fin k → EReal) (r : Fin n) (o : Fin k) : ofEntries f (ix2 r o) = f r o := rfl

/-- Row `r` of `h` against column `o` of `W`. -/
def rowDot {n K M : ℕ} (h : Arr n K) (W : Arr K M) (r : Fin n) (o : Fin M) : EReal :=
  ∑ k : Fin K, h (ix2 r k) * W (ix2 k o)

theorem rowDot_congr {n n' K M : ℕ} {h : Arr n K} {h' : Arr n' K} (W : Arr K M) {r : Fin n} {r' : Fin n'}
    (e : ∀ k, h (ix2 r k) = h' (ix2 r' k)) (o : Fin M) : rowDot h W r o = rowDot h' W r' o :=
  Finset.sum_congr rfl fun k _ => by rw [e k]

/-- The neighbour sums times the reciprocal clamped in-degree of their node. -/
def meanMul {n K : ℕ} (agg : Arr n K) (inv : Arr n 1) : Arr n K :=
  ofEntries fun r k => agg (ix2 r k) * inv (ix2 r 0)

/-- The neighbour sums over the clamped in-degree of their node. -/
def meanDiv {n K : ℕ} (agg : Arr n K) (c : Arr n 1) : Arr n K :=
  ofEntries fun r k => Ideal.div (agg (ix2 r k)) (c (ix2 r 0))

/-- Off zero, a product with the reciprocal is the quotient: both are `a · c⁻¹`. -/
theorem mul_div_one {a c : EReal} (hc : c ≠ 0) : a * Ideal.div 1 c = Ideal.div a c := by
  unfold Ideal.div
  rw [if_neg hc, if_neg hc, one_mul]

theorem meanMul_eq_meanDiv {n K : ℕ} (agg : Arr n K) (c : Arr n 1) (hc : ∀ j, c j ≠ 0) :
    meanMul agg (fun j => Ideal.div 1 (c j)) = meanDiv agg c := by
  funext j
  exact mul_div_one (hc _)

/-- One graph layer at node `r`, output channel `o`. -/
def convAt {n : ℕ} (mean x : Arr n 64) (Wl Wr : Arr 64 64) (b : Fin 64 → EReal) (r : Fin n) (o : Fin 64) : EReal :=
  max (rowDot mean Wl r o + b o + rowDot x Wr r o) 0

/-- One graph layer over all nodes. -/
def conv {n : ℕ} (mean x : Arr n 64) (Wl Wr : Arr 64 64) (b : Fin 64 → EReal) : Arr n 64 :=
  ofEntries (convAt mean x Wl Wr b)

theorem convAt_congr {n n' : ℕ} {mean x : Arr n 64} {mean' x' : Arr n' 64} (Wl Wr : Arr 64 64) (b : Fin 64 → EReal)
    {r : Fin n} {r' : Fin n'} (em : ∀ k, mean (ix2 r k) = mean' (ix2 r' k)) (ex : ∀ k, x (ix2 r k) = x' (ix2 r' k))
    (o : Fin 64) : convAt mean x Wl Wr b r o = convAt mean' x' Wl Wr b r' o := by
  unfold convAt
  rw [rowDot_congr Wl em o, rowDot_congr Wr ex o]

/-- The read-out at node `r`, from the second layer's rows. -/
def readoutAt {n : ℕ} (h : Arr n 64) (Wf1 : Arr 64 32) (bf1 : Fin 32 → EReal) (Wf2 : Arr 32 1) (bf2 : Fin 1 → EReal)
    (r : Fin n) : EReal :=
  Ideal.logistic (rowDot (ofEntries fun r j => max (rowDot h Wf1 r j + bf1 j) 0) Wf2 r 0 + bf2 0)

theorem readoutAt_congr {n n' : ℕ} {h : Arr n 64} {h' : Arr n' 64} (Wf1 : Arr 64 32) (bf1 : Fin 32 → EReal) (Wf2 : Arr 32 1)
    (bf2 : Fin 1 → EReal) {r : Fin n} {r' : Fin n'} (e : ∀ k, h (ix2 r k) = h' (ix2 r' k)) :
    readoutAt h Wf1 bf1 Wf2 bf2 r = readoutAt h' Wf1 bf1 Wf2 bf2 r' := by
  unfold readoutAt
  rw [rowDot_congr (h' := ofEntries fun r j => max (rowDot h' Wf1 r j + bf1 j) 0) Wf2 (r' := r') (fun j => by
    rw [ofEntries_ix2, ofEntries_ix2, rowDot_congr Wf1 e j]) 0]

/-- The second graph layer and the read-out at node `r`. -/
def tailAt {n : ℕ} (mean h : Arr n 64) (Wl Wr : Arr 64 64) (b : Fin 64 → EReal) (Wf1 : Arr 64 32) (bf1 : Fin 32 → EReal)
    (Wf2 : Arr 32 1) (bf2 : Fin 1 → EReal) (r : Fin n) : EReal :=
  readoutAt (conv mean h Wl Wr b) Wf1 bf1 Wf2 bf2 r

theorem tailAt_congr {n n' : ℕ} {mean h : Arr n 64} {mean' h' : Arr n' 64} (Wl Wr : Arr 64 64) (b : Fin 64 → EReal)
    (Wf1 : Arr 64 32) (bf1 : Fin 32 → EReal) (Wf2 : Arr 32 1) (bf2 : Fin 1 → EReal) {r : Fin n} {r' : Fin n'}
    (em : ∀ k, mean (ix2 r k) = mean' (ix2 r' k)) (eh : ∀ k, h (ix2 r k) = h' (ix2 r' k)) :
    tailAt mean h Wl Wr b Wf1 bf1 Wf2 bf2 r = tailAt mean' h' Wl Wr b Wf1 bf1 Wf2 bf2 r' :=
  readoutAt_congr Wf1 bf1 Wf2 bf2 fun k => by
    unfold conv
    rw [ofEntries_ix2, ofEntries_ix2, convAt_congr Wl Wr b em eh k]

/-- The second graph layer and the read-out over all nodes: an `[n, 1]` column. -/
def tail {n : ℕ} (mean h : Arr n 64) (Wl Wr : Arr 64 64) (b : Fin 64 → EReal) (Wf1 : Arr 64 32) (bf1 : Fin 32 → EReal)
    (Wf2 : Arr 32 1) (bf2 : Fin 1 → EReal) : Arr n 1 :=
  ofEntries fun r _ => tailAt mean h Wl Wr b Wf1 bf1 Wf2 bf2 r

/-- The whole network, for a mean-aggregation operator `M` on node arrays: layer one on `(M x, x)`, layer two and the
    read-out on `(M h₁, h₁)`. -/
def net {n : ℕ} (M : Arr n 64 → Arr n 64) (x : Arr n 64) (W1l W1r : Arr 64 64) (b1 : Fin 64 → EReal) (W2l W2r : Arr 64 64)
    (b2 : Fin 64 → EReal) (Wf1 : Arr 64 32) (bf1 : Fin 32 → EReal) (Wf2 : Arr 32 1) (bf2 : Fin 1 → EReal) : Arr n 1 :=
  tail (M (conv (M x) x W1l W1r b1)) (conv (M x) x W1l W1r b1) W2l W2r b2 Wf1 bf1 Wf2 bf2

end Cert.Sage

end
-- ==== Proof.Stage1Entry.lean ====
/-
  The first call's body, at one entry of its output tile.

  On a tile of 10000 nodes the body forms the mean rows (neighbour sums times the reciprocal clamped in-degree, a
  `[10000, 1]` column spread along the channels), multiplies them and the nodes' own rows by the two weight matrices,
  adds the bias row and clamps at zero. At the extended reals the changes of float format are the identity and each
  product into a zero accumulator is the plain sum, so entry `(p, q)` is the graph layer at row `p`, channel `q`.
-/
import proofs.«178451_j58016418234844_2_alg».proof.Proof.Gen.KernelIdeal.Skeleton
import proofs.«178451_j58016418234844_2_alg».proof.Proof.MatmulEntries
import proofs.«178451_j58016418234844_2_alg».proof.Proof.LibColumn
import proofs.«178451_j58016418234844_2_alg».proof.Proof.Network
import Idealize.ShloMosaic.Lib.Pipeline.Value
import Idealize.ShloMosaic.Lib.ValueLayout

noncomputable section

namespace Cert.KernelIdeal.Entry

open Cert.KernelIdeal Cert.KernelIdeal.Gen Idealize.ShloMosaic Idealize.ShloMosaic.ValueIdx
open scoped BigOperators

/-- Entry `(p, q)` of the first body's result is the graph layer of the tile's rows. -/
theorem stage1_entry (x0 : Vec Ideal S10000x64 .f32) (x1 : Vec Ideal S10000x1 .f32) (x2 : Vec Ideal S10000x64 .bf16)
    (x3 x5 : Vec Ideal S64x64 .f32) (x4 : Vec Ideal S1x64 .f32) (p : Fin 10000) (q : Fin 64) :
    k0_pay1 (F := Ideal) x0 x1 x2 x3 x5 x4 (ix2 p q)
      = Cert.Sage.convAt (Cert.Sage.meanMul x0 x1) x2 x3 x5 (fun o => x4 (ix2 (0 : Fin 1) o)) p q := by
  unfold k0_pay1
  simp only [shapeCast_self]
  rw [truncf_apply, maximumf_apply, addf_apply, addf_apply, matmul_tile1, matmul_tile1, broadcast_apply,
    broadcastTo_1b_ab_apply]
  unfold Cert.Sage.convAt Cert.Sage.rowDot Cert.Sage.meanMul
  simp only [truncf_apply, mulf_apply, Cert.LibColumn.broadcastTo_a1_ab_apply, Cert.Sage.ofEntries_ix2, Ideal.ofBits_def,
    Ideal.ofBits_zero_f32]

end Cert.KernelIdeal.Entry

end
-- ==== Proof.Stage1Array.lean ====
/-
  The first call's output array, as one function of the arrays the call finds.

  The grid's ten points tile the 100000 nodes in blocks of 10000 rows. At point `t` the node windows (neighbour sums,
  reciprocal clamped in-degree, node features) hold rows `10000·t … 10000·t + 9999` of their arrays, the weight and bias
  windows hold their whole arrays, and the output window is written back to the same rows of the result. Because a
  graph layer's entry depends on one row of the node arrays, what point `t` writes back is rows `10000·t …` of the
  layer computed over all nodes; the blocks cover every row, so the result array is that layer.
-/
import proofs.«178451_j58016418234844_2_alg».proof.Proof.Gen.KernelIdeal.Frame
import proofs.«178451_j58016418234844_2_alg».proof.Proof.Stage1Entry

set_option maxRecDepth 16384

noncomputable section

namespace Cert.KernelIdeal.Tiles

open Cert.KernelIdeal Cert.KernelIdeal.Gen Cert.KernelIdeal.Entry
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- The first graph layer over all nodes, from the arrays the first call finds. -/
def layer1 (c : Dev nD) : Cert.Sage.Arr 100000 64 :=
  Cert.Sage.conv (Cert.Sage.meanMul (V c main_v23) (V c main_v11)) (V c main_v12) (V c main_arg2) (V c main_arg4)
    (fun o => V c main_v24 (ix2 (0 : Fin 1) o))

/-- The printed index maps over the grid: the node windows and the output window sit at block row `t`, block column 0;
    the weight and bias windows at block (0, 0). -/
theorem index1 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 10 := by
  have hN : cfg0.N = 10 := N_0
  have := t.isLt
  omega

/-- Row `p` of a tile against row `r` of the whole arrays: when the tile's node rows are the arrays' rows `r` and its
    weight and bias blocks are the whole weight and bias arrays, the body's entry `(p, q)` is the layer's entry
    `(r, q)` over all nodes. -/
theorem stage1_rows (x0 : Vec Ideal S10000x64 .f32) (x1 : Vec Ideal S10000x1 .f32) (x2 : Vec Ideal S10000x64 .bf16)
    (x3 x5 : Vec Ideal S64x64 .f32) (x4 : Vec Ideal S1x64 .f32)
    (A0 : Cert.Sage.Arr 100000 64) (A1 : Cert.Sage.Arr 100000 1) (A2 : Cert.Sage.Arr 100000 64) (W3 W5 : Cert.Sage.Arr 64 64)
    (B : Cert.Sage.Arr 1 64) (p : Fin 10000) (q : Fin 64) (r : Fin 100000)
    (e0 : ∀ k, x0 (ix2 p k) = A0 (ix2 r k)) (e1 : x1 (ix2 p (0 : Fin 1)) = A1 (ix2 r (0 : Fin 1)))
    (e2 : ∀ k, x2 (ix2 p k) = A2 (ix2 r k)) (e3 : x3 = W3) (e5 : x5 = W5) (e4 : x4 = B) :
    k0_pay1 (F := Ideal) x0 x1 x2 x3 x5 x4 (ix2 p q)
      = Cert.Sage.conv (Cert.Sage.meanMul A0 A1) A2 W3 W5 (fun o => B (ix2 (0 : Fin 1) o)) (ix2 r q) := by
  subst e3 e5 e4
  rw [stage1_entry]
  unfold Cert.Sage.conv
  rw [Cert.Sage.ofEntries_ix2]
  refine Cert.Sage.convAt_congr _ _ _ (fun k => ?_) e2 q
  unfold Cert.Sage.meanMul
  rw [Cert.Sage.ofEntries_ix2, Cert.Sage.ofEntries_ix2, e0 k, e1]

/-- WHAT POINT `t` WRITES BACK is block `t` of the first graph layer over all nodes. -/
theorem flushed1 (c : Dev nD) (t : Fin cfg0.N) :
    (dat0 (F := Ideal) V c).flushed 6 t = ((cfg0.win 6).blk t).view.read (Elt Ideal) (layer1 V c) := by
  show (cfg0.win 6).cut (grid0.coords t) ((dat0 V c).after 6 t) = _
  rw [after0_6]
  unfold out0_6
  rw [View.canon_unit_zero zero_off]
  simp only [View.ld_unit_zero (S := S10000x64) zero_off, View.ld_unit_zero (S := S10000x1) zero_off,
    View.ld_unit_zero (S := S64x64) zero_off, View.ld_unit_zero (S := S1x64) zero_off]
  obtain ⟨a00, a01, a10, a11, a20, a21, a30, a31, a40, a41, a50, a51, a60, a61⟩ := index1 t
  have ht := point_lt t
  funext j
  obtain ⟨p, q, rfl⟩ : ∃ (p : Fin 10000) (q : Fin 64), j = ix2 p q := ⟨j 0, j 1, eq_ix2 j⟩
  have hp := p.isLt
  show k0_pay1 (iblk0 V c 0 t) (iblk0 V c 1 t) (iblk0 V c 2 t) (iblk0 V c 3 t) (iblk0 V c 5 t) (iblk0 V c 4 t) (ix2 p q)
    = layer1 V c (((cfg0.win 6).blk t).view.emb (ix2 p q))
  have e6 : ((cfg0.win 6).blk t).view.emb (ix2 p q) = ix2 (⟨t.val * 10000 + p.val, by omega⟩ : Fin 100000) q := by
    funext a; apply Fin.ext
    match a with
    | ⟨0, _⟩ => show win0_6.index t (0 : Fin 2) * 10000 + 1 * p.val = t.val * 10000 + p.val; omega
    | ⟨1, _⟩ => show win0_6.index t (1 : Fin 2) * 64 + 1 * q.val = q.val; omega
  rw [e6]
  unfold layer1
  refine stage1_rows _ _ _ _ _ _ _ _ _ _ _ _ p q _ (fun k => ?_) ?_ (fun k => ?_) ?_ ?_ ?_
  · show V c main_v23 (((cfg0.win 0).blk t).view.emb (ix2 p k)) = _
    refine congrArg _ ?_
    funext a; apply Fin.ext
    match a with
    | ⟨0, _⟩ => show win0_0.index t (0 : Fin 2) * 10000 + 1 * p.val = t.val * 10000 + p.val; omega
    | ⟨1, _⟩ => show win0_0.index t (1 : Fin 2) * 64 + 1 * k.val = k.val; omega
  · show V c main_v11 (((cfg0.win 1).blk t).view.emb (ix2 p (0 : Fin 1))) = _
    refine congrArg _ ?_
    funext a; apply Fin.ext
    match a with
    | ⟨0, _⟩ => show win0_1.index t (0 : Fin 2) * 10000 + 1 * p.val = t.val * 10000 + p.val; omega
    | ⟨1, _⟩ => show win0_1.index t (1 : Fin 2) * 1 + 1 * 0 = 0; omega
  · show V c main_v12 (((cfg0.win 2).blk t).view.emb (ix2 p k)) = _
    refine congrArg _ ?_
    funext a; apply Fin.ext
    match a with
    | ⟨0, _⟩ => show win0_2.index t (0 : Fin 2) * 10000 + 1 * p.val = t.val * 10000 + p.val; omega
    | ⟨1, _⟩ => show win0_2.index t (1 : Fin 2) * 64 + 1 * k.val = k.val; omega
  · funext y
    show V c main_arg2 (((cfg0.win 3).blk t).view.emb y) = V c main_arg2 y
    refine congrArg _ ?_
    funext a; apply Fin.ext
    match a with
    | ⟨0, _⟩ => show win0_3.index t (0 : Fin 2) * 64 + 1 * (y 0).val = (y 0).val; omega
    | ⟨1, _⟩ => show win0_3.index t (1 : Fin 2) * 64 + 1 * (y 1).val = (y 1).val; omega
  · funext y
    show V c main_arg4 (((cfg0.win 5).blk t).view.emb y) = V c main_arg4 y
    refine congrArg _ ?_
    funext a; apply Fin.ext
    match a with
    | ⟨0, _⟩ => show win0_5.index t (0 : Fin 2) * 64 + 1 * (y 0).val = (y 0).val; omega
    | ⟨1, _⟩ => show win0_5.index t (1 : Fin 2) * 64 + 1 * (y 1).val = (y 1).val; omega
  · funext y
    show V c main_v24 (((cfg0.win 4).blk t).view.emb y) = V c main_v24 y
    refine congrArg _ ?_
    funext a; apply Fin.ext
    match a with
    | ⟨0, _⟩ => show win0_4.index t (0 : Fin 2) * 1 + 1 * (y 0).val = (y 0).val; omega
    | ⟨1, _⟩ => show win0_4.index t (1 : Fin 2) * 64 + 1 * (y 1).val = (y 1).val; omega

/-- An index of the result array is in point `t`'s block iff each coordinate is in the block's range on its axis. -/
theorem mem_block1 (t : Fin cfg0.N) (i : S100000x64.Idx) :
    i ∈ ((cfg0.win 6).blk t).view.set ↔ ∀ a : Fin 2, win0_6.index t a * S10000x64.size a ≤ (i a).val
      ∧ (i a).val < win0_6.index t a * S10000x64.size a + S10000x64.size a := by
  show i ∈ ((View.whole main_v25).slice (win0_6.rect t)).set ↔ _
  rw [View.set_slice_whole, Rect.mem_set_unit]
  exact Iff.rfl

/-- Every row of the result lies in the block of the point that is its row number over 10000. -/
theorem cover1 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 10 := N_0
  obtain ⟨-, -, -, -, -, -, -, -, -, -, -, -, a60, a61⟩ := index1 (⟨(i 0).val / 10000, by omega⟩ : Fin cfg0.N)
  have a60' : win0_6.index (⟨(i 0).val / 10000, by omega⟩ : Fin cfg0.N) (0 : Fin 2) = (i 0).val / 10000 := a60
  refine ⟨⟨(i 0).val / 10000, by omega⟩, flush0_6 _, ?_⟩
  rw [mem_block1]
  intro a
  match a with
  | ⟨0, _⟩ =>
    show win0_6.index _ (0 : Fin 2) * 10000 ≤ (i 0).val ∧ (i 0).val < win0_6.index _ (0 : Fin 2) * 10000 + 10000
    rw [a60']; omega
  | ⟨1, _⟩ =>
    show win0_6.index _ (1 : Fin 2) * 64 ≤ (i 1).val ∧ (i 1).val < win0_6.index _ (1 : Fin 2) * 64 + 64
    rw [a61]; omega

/-- THE RESULT ARRAY of the first call is the first graph layer over all nodes, of the arrays the call finds. -/
theorem array1 (c : Dev nD) : (dat0 (F := Ideal) V c).arrAt 6 cfg0.N = layer1 V c :=
  (dat0 (F := Ideal) V c).arrAt_eq_of_cover 6 (layer1 V c) (fun t _ => flushed1 V c t) cover1

end Cert.KernelIdeal.Tiles

end
-- ==== Proof.Stage2Entry.lean ====
/-
  The second call's body, at one entry of its output tile.

  On a tile of 5000 nodes the body runs the second graph layer exactly as the first call runs the first (mean rows from
  the neighbour sums and the reciprocal clamped in-degree; two products, the bias row, the clamp at zero), then the
  read-out: a `[64, 32]` product plus a bias row clamped at zero, a `[32, 1]` product plus a bias, and the logistic
  function. At the extended reals the changes of float format are the identity and each product into a zero
  accumulator is the plain sum, so row `p` of the `[5000, 1]` result is the layer-and-read-out at node `p`.
-/
import proofs.«178451_j58016418234844_2_alg».proof.Proof.Gen.KernelIdeal.Skeleton
import proofs.«178451_j58016418234844_2_alg».proof.Proof.MatmulEntries
import proofs.«178451_j58016418234844_2_alg».proof.Proof.LibColumn
import proofs.«178451_j58016418234844_2_alg».proof.Proof.Network
import Idealize.ShloMosaic.Lib.Pipeline.Value
import Idealize.ShloMosaic.Lib.ValueLayout

noncomputable section

namespace Cert.KernelIdeal.Entry

open Cert.KernelIdeal Cert.KernelIdeal.Gen Idealize.ShloMosaic Idealize.ShloMosaic.ValueIdx
open scoped BigOperators

/-- Entry `(p, j)` of the hidden read-out activations: the second graph layer's row `p` against column `j` of the
    first read-out matrix, plus the bias, clamped at zero. -/
theorem hidden_entry (x0 : Vec Ideal S5000x64 .f32) (x1 : Vec Ideal S5000x1 .f32) (x2 : Vec Ideal S5000x64 .bf16)
    (x3 x5 : Vec Ideal S64x64 .f32) (x4 : Vec Ideal S1x64 .f32) (x6 : Vec Ideal S64x32 .f32) (x7 : Vec Ideal S1x32 .f32)
    (p : Fin 5000) (j : Fin 32) :
    k1_pay2 (F := Ideal) x0 x1 x2 x3 x5 x4 x6 x7 (ix2 p j)
      = max (Cert.Sage.rowDot (Cert.Sage.conv (Cert.Sage.meanMul x0 x1) x2 x3 x5 (fun o => x4 (ix2 (0 : Fin 1) o))) x6 p j
          + x7 (ix2 (0 : Fin 1) j)) 0 := by
  unfold k1_pay2
  simp only [shapeCast_self]
  rw [truncf_apply, maximumf_apply, addf_apply, matmul_hidden, broadcast_apply, broadcastTo_1b_ab_apply]
  unfold Cert.Sage.rowDot Cert.Sage.conv Cert.Sage.convAt Cert.Sage.rowDot Cert.Sage.meanMul
  simp only [truncf_apply, maximumf_apply, addf_apply, mulf_apply, matmul_tile2, broadcast_apply, broadcastTo_1b_ab_apply,
    Cert.LibColumn.broadcastTo_a1_ab_apply, Cert.Sage.ofEntries_ix2, Ideal.ofBits_def, Ideal.ofBits_zero_f32]

/-- Row `p` of the second body's result is the second graph layer and the read-out at node `p` of the tile. -/
theorem stage2_entry (x0 : Vec Ideal S5000x64 .f32) (x1 : Vec Ideal S5000x1 .f32) (x2 : Vec Ideal S5000x64 .bf16)
    (x3 x5 : Vec Ideal S64x64 .f32) (x4 : Vec Ideal S1x64 .f32) (x6 : Vec Ideal S64x32 .f32) (x7 : Vec Ideal S1x32 .f32)
    (x8 : Vec Ideal S32x1 .f32) (x9 : Vec Ideal S1x1 .f32) (p : Fin 5000) (u : Fin 1) :
    k1_pay1 (F := Ideal) (k1_pay2 x0 x1 x2 x3 x5 x4 x6 x7) (k1_pay3 x8) x9 (ix2 p u)
      = Cert.Sage.tailAt (Cert.Sage.meanMul x0 x1) x2 x3 x5 (fun o => x4 (ix2 (0 : Fin 1) o)) x6
          (fun j => x7 (ix2 (0 : Fin 1) j)) x8 (fun v => x9 (ix2 (0 : Fin 1) v)) p := by
  have hu : u = 0 := Subsingleton.elim _ _
  subst hu
  unfold k1_pay1 k1_pay3
  simp only [shapeCast_self]
  unfold logistic
  rw [addf_apply, matmul_logit, broadcastTo_1b_ab_apply]
  unfold Cert.Sage.tailAt Cert.Sage.readoutAt
  rw [Ideal.logistic_def]
  refine congrArg Ideal.logistic (congrArg (· + x9 (ix2 (0 : Fin 1) (0 : Fin 1))) ?_)
  unfold Cert.Sage.rowDot
  refine Finset.sum_congr rfl fun k _ => ?_
  rw [hidden_entry, truncf_apply, Cert.Sage.ofEntries_ix2]
  rfl

end Cert.KernelIdeal.Entry

end
-- ==== Proof.Stage2Array.lean ====
/-
  The second call's output array, as one function of the arrays the call finds.

  The grid's twenty points tile the 100000 nodes in blocks of 5000 rows. At point `t` the node windows (second-layer
  neighbour sums, reciprocal clamped in-degree, first-layer features) hold rows `5000·t … 5000·t + 4999` of their
  arrays, the seven weight and bias windows hold their whole arrays, and the `[5000, 1]` output window is written back
  to the same rows of the result column. The second layer and the read-out at a node depend on that node's rows only,
  so what point `t` writes back is rows `5000·t …` of the column computed over all nodes; the blocks cover every row.
-/
import proofs.«178451_j58016418234844_2_alg».proof.Proof.Gen.KernelIdeal.Frame
import proofs.«178451_j58016418234844_2_alg».proof.Proof.Stage2Entry

set_option maxRecDepth 16384

noncomputable section

namespace Cert.KernelIdeal.Tiles2

open Cert.KernelIdeal Cert.KernelIdeal.Gen Cert.KernelIdeal.Entry
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- The second graph layer and the read-out over all nodes, from the arrays the second call finds. -/
def column2 (c : Dev nD) : Cert.Sage.Arr 100000 1 :=
  Cert.Sage.tail (Cert.Sage.meanMul (V c main_v36) (V c main_v11)) (V c main_v25) (V c main_arg5) (V c main_arg7)
    (fun o => V c main_v37 (ix2 (0 : Fin 1) o)) (V c main_arg8) (fun j => V c main_v38 (ix2 (0 : Fin 1) j)) (V c main_arg10)
    (fun v => V c main_v39 (ix2 (0 : Fin 1) v))

/-- The printed index maps over the grid: the node windows and the output window sit at block row `t`, block column 0;
    the weight and bias windows at block (0, 0). -/
theorem index2 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

theorem point_lt (t : Fin cfg1.N) : t.val < 20 := by
  have hN : cfg1.N = 20 := N_1
  have := t.isLt
  omega

/-- Row `p` of a tile against row `r` of the whole arrays: when the tile's node rows are the arrays' rows `r` and its
    weight and bias blocks are the whole weight and bias arrays, the body's entry at row `p` is the column's entry at
    row `r` over all nodes. -/
theorem stage2_rows (x0 : Vec Ideal S5000x64 .f32) (x1 : Vec Ideal S5000x1 .f32) (x2 : Vec Ideal S5000x64 .bf16)
    (x3 x5 : Vec Ideal S64x64 .f32) (x4 : Vec Ideal S1x64 .f32) (x6 : Vec Ideal S64x32 .f32) (x7 : Vec Ideal S1x32 .f32)
    (x8 : Vec Ideal S32x1 .f32) (x9 : Vec Ideal S1x1 .f32)
    (A0 : Cert.Sage.Arr 100000 64) (A1 : Cert.Sage.Arr 100000 1) (A2 : Cert.Sage.Arr 100000 64) (W3 W5 : Cert.Sage.Arr 64 64)
    (B4 : Cert.Sage.Arr 1 64) (W6 : Cert.Sage.Arr 64 32) (B7 : Cert.Sage.Arr 1 32) (W8 : Cert.Sage.Arr 32 1) (B9 : Cert.Sage.Arr 1 1)
    (p : Fin 5000) (u : Fin 1) (r : Fin 100000)
    (e0 : ∀ k, x0 (ix2 p k) = A0 (ix2 r k)) (e1 : x1 (ix2 p (0 : Fin 1)) = A1 (ix2 r (0 : Fin 1)))
    (e2 : ∀ k, x2 (ix2 p k) = A2 (ix2 r k)) (e3 : x3 = W3) (e5 : x5 = W5) (e4 : x4 = B4) (e6 : x6 = W6) (e7 : x7 = B7)
    (e8 : x8 = W8) (e9 : x9 = B9) :
    k1_pay1 (F := Ideal) (k1_pay2 x0 x1 x2 x3 x5 x4 x6 x7) (k1_pay3 x8) x9 (ix2 p u)
      = Cert.Sage.tail (Cert.Sage.meanMul A0 A1) A2 W3 W5 (fun o => B4 (ix2 (0 : Fin 1) o)) W6 (fun j => B7 (ix2 (0 : Fin 1) j)) W8
          (fun v => B9 (ix2 (0 : Fin 1) v)) (ix2 r u) := by
  subst e3 e5 e4 e6 e7 e8 e9
  rw [stage2_entry]
  unfold Cert.Sage.tail
  rw [Cert.Sage.ofEntries_ix2]
  refine Cert.Sage.tailAt_congr _ _ _ _ _ _ _ (fun k => ?_) e2
  unfold Cert.Sage.meanMul
  rw [Cert.Sage.ofEntries_ix2, Cert.Sage.ofEntries_ix2, e0 k, e1]

/-- WHAT POINT `t` WRITES BACK is block `t` of the column over all nodes. -/
theorem flushed2 (c : Dev nD) (t : Fin cfg1.N) :
    (dat1 (F := Ideal) V c).flushed 10 t = ((cfg1.win 10).blk t).view.read (Elt Ideal) (column2 V c) := by
  show (cfg1.win 10).cut (grid1.coords t) ((dat1 V c).after 10 t) = _
  rw [after1_10]
  unfold out1_10
  rw [View.canon_unit_zero zero_off]
  simp only [View.ld_unit_zero (S := S5000x64) zero_off, View.ld_unit_zero (S := S5000x1) zero_off,
    View.ld_unit_zero (S := S64x64) zero_off, View.ld_unit_zero (S := S1x64) zero_off,
    View.ld_unit_zero (S := S64x32) zero_off, View.ld_unit_zero (S := S1x32) zero_off,
    View.ld_unit_zero (S := S32x1) zero_off, View.ld_unit_zero (S := S1x1) zero_off]
  obtain ⟨a0_0, a0_1, a1_0, a1_1, a2_0, a2_1, a3_0, a3_1, a4_0, a4_1, a5_0, a5_1, a6_0, a6_1, a7_0, a7_1, a8_0, a8_1, a9_0, a9_1, a10_0, a10_1⟩ := index2 t
  have ht := point_lt t
  funext j
  obtain ⟨p, u, rfl⟩ : ∃ (p : Fin 5000) (u : Fin 1), j = ix2 p u := ⟨j 0, j 1, eq_ix2 j⟩
  have hp := p.isLt
  have hu := u.isLt
  show k1_pay1 (k1_pay2 (iblk1 V c 0 t) (iblk1 V c 1 t) (iblk1 V c 2 t) (iblk1 V c 3 t) (iblk1 V c 5 t) (iblk1 V c 4 t)
      (iblk1 V c 6 t) (iblk1 V c 7 t)) (k1_pay3 (iblk1 V c 8 t)) (iblk1 V c 9 t) (ix2 p u)
    = column2 V c (((cfg1.win 10).blk t).view.emb (ix2 p u))
  have e10 : ((cfg1.win 10).blk t).view.emb (ix2 p u) = ix2 (⟨t.val * 5000 + p.val, by omega⟩ : Fin 100000) u := by
    funext a; apply Fin.ext
    match a with
    | ⟨0, _⟩ => show win1_10.index t (0 : Fin 2) * 5000 + 1 * p.val = t.val * 5000 + p.val; omega
    | ⟨1, _⟩ => show win1_10.index t (1 : Fin 2) * 1 + 1 * u.val = u.val; omega
  rw [e10]
  unfold column2
  refine stage2_rows _ _ _ _ _ _ _ _ _ _ _ _ _ _ _ _ _ _ _ _ p u _ (fun k => ?_) ?_ (fun k => ?_) ?_ ?_ ?_ ?_ ?_ ?_ ?_
  · show V c main_v36 (((cfg1.win 0).blk t).view.emb (ix2 p k)) = _
    refine congrArg _ ?_
    funext a; apply Fin.ext
    match a with
    | ⟨0, _⟩ => show win1_0.index t (0 : Fin 2) * 5000 + 1 * p.val = t.val * 5000 + p.val; omega
    | ⟨1, _⟩ => show win1_0.index t (1 : Fin 2) * 64 + 1 * k.val = k.val; omega
  · show V c main_v11 (((cfg1.win 1).blk t).view.emb (ix2 p (0 : Fin 1))) = _
    refine congrArg _ ?_
    funext a; apply Fin.ext
    match a with
    | ⟨0, _⟩ => show win1_1.index t (0 : Fin 2) * 5000 + 1 * p.val = t.val * 5000 + p.val; omega
    | ⟨1, _⟩ => show win1_1.index t (1 : Fin 2) * 1 + 1 * 0 = 0; omega
  · show V c main_v25 (((cfg1.win 2).blk t).view.emb (ix2 p k)) = _
    refine congrArg _ ?_
    funext a; apply Fin.ext
    match a with
    | ⟨0, _⟩ => show win1_2.index t (0 : Fin 2) * 5000 + 1 * p.val = t.val * 5000 + p.val; omega
    | ⟨1, _⟩ => show win1_2.index t (1 : Fin 2) * 64 + 1 * k.val = k.val; omega
  · funext y
    show V c main_arg5 (((cfg1.win 3).blk t).view.emb y) = V c main_arg5 y
    refine congrArg _ ?_
    funext a; apply Fin.ext
    match a with
    | ⟨0, _⟩ => show win1_3.index t (0 : Fin 2) * 64 + 1 * (y 0).val = (y 0).val; omega
    | ⟨1, _⟩ => show win1_3.index t (1 : Fin 2) * 64 + 1 * (y 1).val = (y 1).val; omega
  · funext y
    show V c main_arg7 (((cfg1.win 5).blk t).view.emb y) = V c main_arg7 y
    refine congrArg _ ?_
    funext a; apply Fin.ext
    match a with
    | ⟨0, _⟩ => show win1_5.index t (0 : Fin 2) * 64 + 1 * (y 0).val = (y 0).val; omega
    | ⟨1, _⟩ => show win1_5.index t (1 : Fin 2) * 64 + 1 * (y 1).val = (y 1).val; omega
  · funext y
    show V c main_v37 (((cfg1.win 4).blk t).view.emb y) = V c main_v37 y
    refine congrArg _ ?_
    funext a; apply Fin.ext
    match a with
    | ⟨0, _⟩ => show win1_4.index t (0 : Fin 2) * 1 + 1 * (y 0).val = (y 0).val; omega
    | ⟨1, _⟩ => show win1_4.index t (1 : Fin 2) * 64 + 1 * (y 1).val = (y 1).val; omega
  · funext y
    show V c main_arg8 (((cfg1.win 6).blk t).view.emb y) = V c main_arg8 y
    refine congrArg _ ?_
    funext a; apply Fin.ext
    match a with
    | ⟨0, _⟩ => show win1_6.index t (0 : Fin 2) * 64 + 1 * (y 0).val = (y 0).val; omega
    | ⟨1, _⟩ => show win1_6.index t (1 : Fin 2) * 32 + 1 * (y 1).val = (y 1).val; omega
  · funext y
    show V c main_v38 (((cfg1.win 7).blk t).view.emb y) = V c main_v38 y
    refine congrArg _ ?_
    funext a; apply Fin.ext
    match a with
    | ⟨0, _⟩ => show win1_7.index t (0 : Fin 2) * 1 + 1 * (y 0).val = (y 0).val; omega
    | ⟨1, _⟩ => show win1_7.index t (1 : Fin 2) * 32 + 1 * (y 1).val = (y 1).val; omega
  · funext y
    show V c main_arg10 (((cfg1.win 8).blk t).view.emb y) = V c main_arg10 y
    refine congrArg _ ?_
    funext a; apply Fin.ext
    match a with
    | ⟨0, _⟩ => show win1_8.index t (0 : Fin 2) * 32 + 1 * (y 0).val = (y 0).val; omega
    | ⟨1, _⟩ => show win1_8.index t (1 : Fin 2) * 1 + 1 * (y 1).val = (y 1).val; omega
  · funext y
    show V c main_v39 (((cfg1.win 9).blk t).view.emb y) = V c main_v39 y
    refine congrArg _ ?_
    funext a; apply Fin.ext
    match a with
    | ⟨0, _⟩ => show win1_9.index t (0 : Fin 2) * 1 + 1 * (y 0).val = (y 0).val; omega
    | ⟨1, _⟩ => show win1_9.index t (1 : Fin 2) * 1 + 1 * (y 1).val = (y 1).val; omega

/-- An index of the result column is in point `t`'s block iff each coordinate is in the block's range on its axis. -/
theorem mem_block2 (t : Fin cfg1.N) (i : S100000x1.Idx) :
    i ∈ ((cfg1.win 10).blk t).view.set ↔ ∀ a : Fin 2, win1_10.index t a * S5000x1.size a ≤ (i a).val
      ∧ (i a).val < win1_10.index t a * S5000x1.size a + S5000x1.size a := by
  show i ∈ ((View.whole main_v40).slice (win1_10.rect t)).set ↔ _
  rw [View.set_slice_whole, Rect.mem_set_unit]
  exact Iff.rfl

/-- Every row of the result lies in the block of the point that is its row number over 5000. -/
theorem cover2 (i : S100000x1.Idx) :
    ∃ t : Fin cfg1.N, (cfg1.win 10).flush t = true ∧ i ∈ ((cfg1.win 10).blk t).view.set := by
  have hi0 : (i 0).val < 100000 := (i 0).isLt
  have hi1 : (i 1).val < 1 := (i 1).isLt
  have hN : cfg1.N = 20 := N_1
  obtain ⟨-, -, -, -, -, -, -, -, -, -, -, -, -, -, -, -, -, -, -, -, b0, b1⟩ := index2 (⟨(i 0).val / 5000, by omega⟩ : Fin cfg1.N)
  have b0' : win1_10.index (⟨(i 0).val / 5000, by omega⟩ : Fin cfg1.N) (0 : Fin 2) = (i 0).val / 5000 := b0
  refine ⟨⟨(i 0).val / 5000, by omega⟩, flush1_10 _, ?_⟩
  rw [mem_block2]
  intro a
  match a with
  | ⟨0, _⟩ =>
    show win1_10.index _ (0 : Fin 2) * 5000 ≤ (i 0).val ∧ (i 0).val < win1_10.index _ (0 : Fin 2) * 5000 + 5000
    rw [b0']; omega
  | ⟨1, _⟩ =>
    show win1_10.index _ (1 : Fin 2) * 1 ≤ (i 1).val ∧ (i 1).val < win1_10.index _ (1 : Fin 2) * 1 + 1
    rw [b1]; omega

/-- THE RESULT COLUMN of the second call is the second graph layer and the read-out over all nodes, of the arrays the
    call finds. -/
theorem array2 (c : Dev nD) : (dat1 (F := Ideal) V c).arrAt 10 cfg1.N = column2 V c :=
  (dat1 (F := Ideal) V c).arrAt_eq_of_cover 10 (column2 V c) (fun t _ => flushed2 V c t) cover2

end Cert.KernelIdeal.Tiles2

end
-- ==== Proof.KernelValue.lean ====
/-
  The idealized kernel's result, as the network over all nodes.

  Around its two calls the kernel's host program computes, from the edge list, the wrapped source indices and the
  destination indices, the in-degree count clamped below at one and its reciprocal (a column), and the neighbour sums
  of a node array (a row gather at the sources accumulated at the destinations; the change to a narrower float format
  before the gather and back after it is the identity on the extended reals). The first call receives the neighbour
  sums of the input features; the second receives the neighbour sums of the FIRST CALL'S OUTPUT, the same reciprocal
  column and that output itself. Composing the two calls' array theorems along this wiring gives the network, with the
  mean formed by multiplying with the reciprocal.
-/
import proofs.«178451_j58016418234844_2_alg».proof.Proof.Stage1Array
import proofs.«178451_j58016418234844_2_alg».proof.Proof.Stage2Array
import Idealize.ShloMosaic.Lib.StableHlo.Run
import Idealize.ShloMosaic.Lib.ValueLayout
import Idealize.ShloMosaic.Lib.IdealHost

set_option maxRecDepth 16384

noncomputable section

namespace Cert.KernelIdeal.Whole

open Cert.KernelIdeal Cert.KernelIdeal.Gen Cert.KernelIdeal.Tiles Cert.KernelIdeal.Tiles2
open Idealize.ShloMosaic Idealize.ShloMosaic.TcCoe Idealize.ShloMosaic.ValueIdx Idealize.SL.Sem Idealize.ShloMosaic.StableHlo

/-- The `[2, E]` edge list: row 0 the sources, row 1 the destinations. -/
abbrev Edges : Type := (⟨S2x1600000, .i32⟩ : BufTy).Contents (Elt Ideal)

/-- The source node of each edge. -/
def srcVec (E : Edges) : (⟨S1600000, .i32⟩ : BufTy).Contents (Elt Ideal) :=
  shapeCast S1600000 (extractStridedSlice S1x1600000 ![0, 0] E slices_S2x1600000_S1x1600000_0_0) shapeCasts_S1x1600000_S1600000

/-- The destination node of each edge. -/
def dstVec (E : Edges) : (⟨S1600000, .i32⟩ : BufTy).Contents (Elt Ideal) :=
  shapeCast S1600000 (extractStridedSlice S1x1600000 ![1, 0] E slices_S2x1600000_S1x1600000_1_0) shapeCasts_S1x1600000_S1600000

/-- The sources, a negative index wrapped by the node count, as a column of gather start indices. -/
def srcCol (E : Edges) : (⟨S1600000x1, .i32⟩ : BufTy).Contents (Elt Ideal) :=
  broadcastInDim S1600000x1 ![0] bcast_S1600000_S1600000x1_0
    (select (cmpi .slt (srcVec E) (broadcastInDim S1600000 ![] bcast_S_S1600000 (constantI S_ 32 0#32)))
      (addi (srcVec E) (broadcastInDim S1600000 ![] bcast_S_S1600000 (constantI S_ 32 100000#32))) (srcVec E))

/-- The destinations as a column of scatter indices. -/
def dstCol (E : Edges) : (⟨S1600000x1, .i32⟩ : BufTy).Contents (Elt Ideal) :=
  broadcastInDim S1600000x1 ![0] bcast_S1600000_S1600000x1_0 (dstVec E)

/-- The neighbour sums of a node array. -/
def agg (E : Edges) (y : Cert.Sage.Arr 100000 64) : Cert.Sage.Arr 100000 64 :=
  Host.scatterAdd (F := Ideal) (φ := .f32) scatter_S100000x64_S1600000x1_S1600000x64_1_0_0_1
    (broadcastInDim S100000x64 ![] bcast_S_S100000x64 (constant (F := Ideal) S_ .f32 0x00000000#32)) (dstCol E)
    (Host.gather gather_S100000x64_S1600000x1_S1600000x64_1_0_n_n_0_1_164 (y : FVec Ideal S100000x64 .f32) (srcCol E))

/-- The in-degree count clamped below at one, a column. -/
def clampedDegree (E : Edges) : Cert.Sage.Arr 100000 1 :=
  maximumf (F := Ideal) (φ := .f32)
    (Host.scatterAdd (F := Ideal) (φ := .f32) scatter_S100000x1_S1600000x1_S1600000x1_1_0_0_1
      (broadcastInDim S100000x1 ![] bcast_S_S100000x1 (constant (F := Ideal) S_ .f32 0x00000000#32)) (dstCol E)
      (broadcastInDim S1600000x1 ![] bcast_S_S1600000x1 (constant (F := Ideal) S_ .f32 0x3F800000#32)))
    (broadcastInDim S100000x1 ![] bcast_S_S100000x1 (constant (F := Ideal) S_ .f32 0x3F800000#32))

/-- One over the clamped in-degree, a column. -/
def invDegree (E : Edges) : Cert.Sage.Arr 100000 1 :=
  Host.divf (F := Ideal) (φ := .f32) (broadcastInDim S100000x1 ![] bcast_S_S100000x1 (constant (F := Ideal) S_ .f32 0x3F800000#32))
    (clampedDegree E)

/-- The kernel's mean aggregation: neighbour sums times the reciprocal clamped in-degree. -/
def meanAgg (E : Edges) (y : Cert.Sage.Arr 100000 64) : Cert.Sage.Arr 100000 64 := Cert.Sage.meanMul (agg E y) (invDegree E)

set_option maxHeartbeats 50000 in
/-- One over a column, entry by entry: the constant-one column divided by `y` is `1 / y j` at `j`. -/
theorem one_over_apply (y : FVec Ideal S100000x1 .f32) (j : S100000x1.Idx) :
    Host.divf (F := Ideal) (φ := .f32) (broadcastInDim S100000x1 ![] bcast_S_S100000x1 (constant (F := Ideal) S_ .f32 0x3F800000#32)) y j
      = Ideal.div 1 (y j) := by
  unfold Host.divf
  show FloatOps.hostDivf (F := Ideal) (φ := .f32)
    (broadcastInDim S100000x1 ![] bcast_S_S100000x1 (constant (F := Ideal) S_ .f32 0x3F800000#32) j) (y j) = _
  rw [broadcastInDim_apply _ bcast_S_S100000x1 (constant (F := Ideal) S_ .f32 0x3F800000#32) j (fun a => a.elim0) (fun a => a.elim0),
    constant_apply, Ideal.hostDivf_def, Ideal.ofBits_one_f32]

set_option maxHeartbeats 50000 in
/-- An entry of the reciprocal column is one over the clamped in-degree of its node. -/
theorem invDegree_apply (E : Edges) (j : S100000x1.Idx) : invDegree E j = Ideal.div 1 (clampedDegree E j) :=
  one_over_apply (clampedDegree E) j

variable (m : (ℓ : Loc nD τ sig) → Buf (Elt Ideal) ℓ) (ρ : Dev nD → PrngReg)

/-! ## What the first call finds -/

set_option maxHeartbeats 4000000 in
theorem found1_sums (c : Dev nD) : V1 (F := Ideal) m ρ c main_v23 = agg (m ((c : Thread nD τ).loc main_arg1)) (m ((c : Thread nD τ).loc main_arg0)) := by
  show StableHlo.after hostOps0 (W0 m ρ c) (Proc.devRef .tc main_v23) = _
  after_results_simp
  rfl

set_option maxHeartbeats 4000000 in
theorem found1_inv (c : Dev nD) : V1 (F := Ideal) m ρ c main_v11 = invDegree (m ((c : Thread nD τ).loc main_arg1)) := by
  show StableHlo.after hostOps0 (W0 m ρ c) (Proc.devRef .tc main_v11) = _
  after_results_simp
  rfl

set_option maxHeartbeats 4000000 in
theorem found1_features (c : Dev nD) : V1 (F := Ideal) m ρ c main_v12 = (m ((c : Thread nD τ).loc main_arg0)) := by
  show StableHlo.after hostOps0 (W0 m ρ c) (Proc.devRef .tc main_v12) = _
  after_results_simp
  rfl

set_option maxHeartbeats 4000000 in
theorem found1_Wl (c : Dev nD) : V1 (F := Ideal) m ρ c main_arg2 = (m ((c : Thread nD τ).loc main_arg2)) := by
  show StableHlo.after hostOps0 (W0 m ρ c) (Proc.devRef .tc main_arg2) = _
  after_results_simp

set_option maxHeartbeats 4000000 in
theorem found1_Wr (c : Dev nD) : V1 (F := Ideal) m ρ c main_arg4 = (m ((c : Thread nD τ).loc main_arg4)) := by
  show StableHlo.after hostOps0 (W0 m ρ c) (Proc.devRef .tc main_arg4) = _
  after_results_simp

set_option maxHeartbeats 4000000 in
theorem found1_bias (c : Dev nD) : V1 (F := Ideal) m ρ c main_v24 = shapeCast S1x64 (m ((c : Thread nD τ).loc main_arg3)) shapeCasts_S64_S1x64 := by
  show StableHlo.after hostOps0 (W0 m ρ c) (Proc.devRef .tc main_v24) = _
  after_results_simp
  rfl

/-- THE FIRST CALL'S RESULT is the first graph layer over all nodes, of the program's arguments. -/
theorem hidden1 (c : Dev nD) :
    layer1 (V1 (F := Ideal) m ρ) c = Cert.Sage.conv (meanAgg (m ((c : Thread nD τ).loc main_arg1)) (m ((c : Thread nD τ).loc main_arg0))) (m ((c : Thread nD τ).loc main_arg0))
      (m ((c : Thread nD τ).loc main_arg2)) (m ((c : Thread nD τ).loc main_arg4)) (fun o => (m ((c : Thread nD τ).loc main_arg3)) (ix1 o)) := by
  unfold layer1 meanAgg
  rw [found1_sums, found1_inv, found1_features, found1_Wl, found1_Wr, found1_bias]
  refine congrArg _ (funext fun o => ?_)
  exact shapeCast_a_1a_apply _ _ 0 o

/-! ## What the second call finds -/

set_option maxHeartbeats 4000000 in
theorem between_src (c : Dev nD) : W1 (F := Ideal) m ρ c (Proc.devRef .tc main_v1) = srcVec (m ((c : Thread nD τ).loc main_arg1)) := by
  show StableHlo.after hostOps0 (W0 m ρ c) (Proc.devRef .tc main_v1) = _
  after_results_simp
  rfl

set_option maxHeartbeats 4000000 in
theorem between_dst (c : Dev nD) : W1 (F := Ideal) m ρ c (Proc.devRef .tc main_v3) = dstVec (m ((c : Thread nD τ).loc main_arg1)) := by
  show StableHlo.after hostOps0 (W0 m ρ c) (Proc.devRef .tc main_v3) = _
  after_results_simp
  rfl

theorem between_hidden (c : Dev nD) : W2 (F := Ideal) m ρ c (Proc.devRef .tc main_v25) = layer1 (V1 (F := Ideal) m ρ) c :=
  (W2_arr m ρ c 6).trans (array1 (V1 (F := Ideal) m ρ) c)

set_option maxHeartbeats 4000000 in
theorem found2_sums (c : Dev nD) : V3 (F := Ideal) m ρ c main_v36 = agg (m ((c : Thread nD τ).loc main_arg1)) (layer1 (V1 (F := Ideal) m ρ) c) := by
  show StableHlo.after hostOps1 (W2 m ρ c) (Proc.devRef .tc main_v36) = _
  after_results_simp
  rw [W2_of_ne m ρ c main_v3 (by decide), W2_of_ne m ρ c main_v1 (by decide), between_hidden, between_src, between_dst]
  rfl

set_option maxHeartbeats 4000000 in
theorem found2_inv (c : Dev nD) : V3 (F := Ideal) m ρ c main_v11 = invDegree (m ((c : Thread nD τ).loc main_arg1)) := by
  show StableHlo.after hostOps1 (W2 m ρ c) (Proc.devRef .tc main_v11) = _
  after_results_simp
  have h : W2 (F := Ideal) m ρ c (Proc.devRef .tc main_v11) = V1 (F := Ideal) m ρ c main_v11 :=
    (W2_arr m ρ c 1).trans (((dat0 (V1 (F := Ideal) m ρ) c).arrAt_in 1 rfl _).trans (A_eq0 (V1 (F := Ideal) m ρ) c 1))
  rw [h]
  exact found1_inv m ρ c

set_option maxHeartbeats 4000000 in
theorem found2_hidden (c : Dev nD) : V3 (F := Ideal) m ρ c main_v25 = layer1 (V1 (F := Ideal) m ρ) c := by
  show StableHlo.after hostOps1 (W2 m ρ c) (Proc.devRef .tc main_v25) = _
  after_results_simp
  exact between_hidden m ρ c

set_option maxHeartbeats 4000000 in
theorem found2_Wl (c : Dev nD) : V3 (F := Ideal) m ρ c main_arg5 = (m ((c : Thread nD τ).loc main_arg5)) := by
  show StableHlo.after hostOps1 (W2 m ρ c) (Proc.devRef .tc main_arg5) = _
  after_results_simp
  rw [W2_of_ne m ρ c main_arg5 (by decide)]
  show StableHlo.after hostOps0 (W0 m ρ c) (Proc.devRef .tc main_arg5) = _
  after_results_simp

set_option maxHeartbeats 4000000 in
theorem found2_Wr (c : Dev nD) : V3 (F := Ideal) m ρ c main_arg7 = (m ((c : Thread nD τ).loc main_arg7)) := by
  show StableHlo.after hostOps1 (W2 m ρ c) (Proc.devRef .tc main_arg7) = _
  after_results_simp
  rw [W2_of_ne m ρ c main_arg7 (by decide)]
  show StableHlo.after hostOps0 (W0 m ρ c) (Proc.devRef .tc main_arg7) = _
  after_results_simp

set_option maxHeartbeats 4000000 in
theorem found2_Wf1 (c : Dev nD) : V3 (F := Ideal) m ρ c main_arg8 = (m ((c : Thread nD τ).loc main_arg8)) := by
  show StableHlo.after hostOps1 (W2 m ρ c) (Proc.devRef .tc main_arg8) = _
  after_results_simp
  rw [W2_of_ne m ρ c main_arg8 (by decide)]
  show StableHlo.after hostOps0 (W0 m ρ c) (Proc.devRef .tc main_arg8) = _
  after_results_simp

set_option maxHeartbeats 4000000 in
theorem found2_Wf2 (c : Dev nD) : V3 (F := Ideal) m ρ c main_arg10 = (m ((c : Thread nD τ).loc main_arg10)) := by
  show StableHlo.after hostOps1 (W2 m ρ c) (Proc.devRef .tc main_arg10) = _
  after_results_simp
  rw [W2_of_ne m ρ c main_arg10 (by decide)]
  show StableHlo.after hostOps0 (W0 m ρ c) (Proc.devRef .tc main_arg10) = _
  after_results_simp

set_option maxHeartbeats 4000000 in
theorem found2_bias (c : Dev nD) : V3 (F := Ideal) m ρ c main_v37 = shapeCast S1x64 (m ((c : Thread nD τ).loc main_arg6)) shapeCasts_S64_S1x64 := by
  show StableHlo.after hostOps1 (W2 m ρ c) (Proc.devRef .tc main_v37) = _
  after_results_simp
  rw [W2_of_ne m ρ c main_arg6 (by decide)]
  show shapeCast _ (StableHlo.after hostOps0 (W0 m ρ c) (Proc.devRef .tc main_arg6)) _ = _
  after_results_simp
  rfl

set_option maxHeartbeats 4000000 in
theorem found2_bf1 (c : Dev nD) : V3 (F := Ideal) m ρ c main_v38 = shapeCast S1x32 (m ((c : Thread nD τ).loc main_arg9)) shapeCasts_S32_S1x32 := by
  show StableHlo.after hostOps1 (W2 m ρ c) (Proc.devRef .tc main_v38) = _
  after_results_simp
  rw [W2_of_ne m ρ c main_arg9 (by decide)]
  show shapeCast _ (StableHlo.after hostOps0 (W0 m ρ c) (Proc.devRef .tc main_arg9)) _ = _
  after_results_simp
  rfl

set_option maxHeartbeats 4000000 in
theorem found2_bf2 (c : Dev nD) : V3 (F := Ideal) m ρ c main_v39 = shapeCast S1x1 (m ((c : Thread nD τ).loc main_arg11)) shapeCasts_S1_S1x1 := by
  show StableHlo.after hostOps1 (W2 m ρ c) (Proc.devRef .tc main_v39) = _
  after_results_simp
  rw [W2_of_ne m ρ c main_arg11 (by decide)]
  show shapeCast _ (StableHlo.after hostOps0 (W0 m ρ c) (Proc.devRef .tc main_arg11)) _ = _
  after_results_simp
  rfl

/-- THE KERNEL'S RESULT, the last boundary's contents at the result buffer, is the network over all nodes with the mean
    formed by the reciprocal. -/
theorem result_eq (c : Dev nD) :
    W4 (F := Ideal) m ρ c (Proc.devRef .tc main_v40)
      = Cert.Sage.net (meanAgg (m ((c : Thread nD τ).loc main_arg1))) (m ((c : Thread nD τ).loc main_arg0)) (m ((c : Thread nD τ).loc main_arg2)) (m ((c : Thread nD τ).loc main_arg4)) (fun o => (m ((c : Thread nD τ).loc main_arg3)) (ix1 o))
          (m ((c : Thread nD τ).loc main_arg5)) (m ((c : Thread nD τ).loc main_arg7)) (fun o => (m ((c : Thread nD τ).loc main_arg6)) (ix1 o)) (m ((c : Thread nD τ).loc main_arg8))
          (fun j => (m ((c : Thread nD τ).loc main_arg9)) (ix1 j)) (m ((c : Thread nD τ).loc main_arg10)) (fun v => (m ((c : Thread nD τ).loc main_arg11)) (ix1 v)) := by
  have h40 : W4 (F := Ideal) m ρ c (Proc.devRef .tc main_v40) = (dat1 (V3 (F := Ideal) m ρ) c).arrAt 10 cfg1.N := W4_arr m ρ c 10
  rw [h40, array2]
  unfold column2 Cert.Sage.net
  rw [found2_sums, found2_inv, found2_hidden, found2_Wl, found2_Wr, found2_Wf1, found2_Wf2, found2_bias, found2_bf1, found2_bf2, hidden1]
  have b2 : (fun o : Fin 64 => shapeCast S1x64 (m ((c : Thread nD τ).loc main_arg6)) shapeCasts_S64_S1x64 (ix2 (0 : Fin 1) o)) = fun o => (m ((c : Thread nD τ).loc main_arg6)) (ix1 o) :=
    funext fun o => shapeCast_a_1a_apply _ _ 0 o
  have b3 : (fun j : Fin 32 => shapeCast S1x32 (m ((c : Thread nD τ).loc main_arg9)) shapeCasts_S32_S1x32 (ix2 (0 : Fin 1) j)) = fun j => (m ((c : Thread nD τ).loc main_arg9)) (ix1 j) :=
    funext fun j => shapeCast_a_1a_apply _ _ 0 j
  have b4 : (fun v : Fin 1 => shapeCast S1x1 (m ((c : Thread nD τ).loc main_arg11)) shapeCasts_S1_S1x1 (ix2 (0 : Fin 1) v)) = fun v => (m ((c : Thread nD τ).loc main_arg11)) (ix1 v) :=
    funext fun v => shapeCast_a_1a_apply _ _ 0 v
  rw [b2, b3, b4]
  rfl

end Cert.KernelIdeal.Whole

end
-- ==== Proof.ReferenceValue.lean ====
/-
  The reference program's result, as the network over all nodes.

  The reference forms each graph layer's mean by DIVIDING the neighbour sums by the clamped in-degree, and spells the
  logistic function as `1 / (1 + exp (−y))`, which is what that function is on the extended reals. Its neighbour sums
  are one operator `agg` on node arrays — a row gather at the wrapped source indices followed by an accumulating
  scatter at the destination indices — applied to the input features and then to the first layer's output, and the
  in-degree count is the same term both times. Reading each stage at an index through the generated per-operation
  lemmas identifies the three stages with the network's layers.
-/
import proofs.«178451_j58016418234844_2_alg».proof.Proof.Gen.ReferenceIdeal.Read
import proofs.«178451_j58016418234844_2_alg».proof.Proof.Network
import Idealize.ShloMosaic.Lib.IdealHost

set_option maxRecDepth 16384

noncomputable section

namespace Cert.ReferenceIdeal.RefValue

open Cert.ReferenceIdeal Cert.ReferenceIdeal.Gen Cert.ReferenceIdeal.Read
open Idealize.ShloMosaic Idealize.ShloMosaic.ValueIdx
open scoped BigOperators

/-- The neighbour sums of a node array: rows gathered at the wrapped source indices, accumulated at the destinations. -/
def agg (x1 : (⟨S2x1600000, .i32⟩ : BufTy).Contents (Elt Ideal)) (y : Cert.Sage.Arr 100000 64) : Cert.Sage.Arr 100000 64 :=
  Host.scatterAdd (F := Ideal) (φ := .f32) scatter_S100000x64_S1600000x1_S1600000x64_1_0_0_1 (val_main_v11 (F := Ideal))
    (val_main_v12 (F := Ideal) x1)
    (Host.gather gather_S100000x64_S1600000x1_S1600000x64_1_0_n_n_0_1_164 (y : FVec Ideal S100000x64 .f32) (val_main_v9 (F := Ideal) x1))

/-- The in-degree count clamped below at one, a column. -/
def degree (x1 : (⟨S2x1600000, .i32⟩ : BufTy).Contents (Elt Ideal)) : Cert.Sage.Arr 100000 1 := val_main_v19 (F := Ideal) x1

/-- The reference's mean aggregation: neighbour sums over the clamped in-degree. -/
def meanAgg (x1 : (⟨S2x1600000, .i32⟩ : BufTy).Contents (Elt Ideal)) (y : Cert.Sage.Arr 100000 64) : Cert.Sage.Arr 100000 64 :=
  Cert.Sage.meanDiv (agg x1 y) (degree x1)

theorem sums1 (x0 : (⟨S100000x64, .f32⟩ : BufTy).Contents (Elt Ideal)) (x1 : (⟨S2x1600000, .i32⟩ : BufTy).Contents (Elt Ideal)) : val_main_v13 (F := Ideal) x0 x1 = agg x1 x0 := rfl
theorem sums2 (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v38 (F := Ideal) x0 x1 x2 x3 x4 = agg x1 (val_main_v28 (F := Ideal) x0 x1 x2 x3 x4) := rfl
theorem degree2 (x1 : (⟨S2x1600000, .i32⟩ : BufTy).Contents (Elt Ideal)) : val_main_v44 (F := Ideal) x1 = degree x1 := rfl

/-! The generated index functions, at an index written by coordinates. -/

theorem rowOf_lhs (r : Fin 100000) (o k : Fin 64) : lidx_main_v22 (ix2 r o) k = ix2 r k :=
  funext fun a => by match a with | ⟨0, _⟩ => rfl | ⟨1, _⟩ => rfl
theorem colOf_rhs (r : Fin 100000) (o k : Fin 64) : ridx_main_v22 (ix2 r o) k = ix2 k o :=
  funext fun a => by match a with | ⟨0, _⟩ => rfl | ⟨1, _⟩ => rfl
theorem rowOf_lhs26 (r : Fin 100000) (o k : Fin 64) : lidx_main_v26 (ix2 r o) k = ix2 r k :=
  funext fun a => by match a with | ⟨0, _⟩ => rfl | ⟨1, _⟩ => rfl
theorem colOf_rhs26 (r : Fin 100000) (o k : Fin 64) : ridx_main_v26 (ix2 r o) k = ix2 k o :=
  funext fun a => by match a with | ⟨0, _⟩ => rfl | ⟨1, _⟩ => rfl
theorem rowOf_lhs47 (r : Fin 100000) (o k : Fin 64) : lidx_main_v47 (ix2 r o) k = ix2 r k :=
  funext fun a => by match a with | ⟨0, _⟩ => rfl | ⟨1, _⟩ => rfl
theorem colOf_rhs47 (r : Fin 100000) (o k : Fin 64) : ridx_main_v47 (ix2 r o) k = ix2 k o :=
  funext fun a => by match a with | ⟨0, _⟩ => rfl | ⟨1, _⟩ => rfl
theorem rowOf_lhs51 (r : Fin 100000) (o k : Fin 64) : lidx_main_v51 (ix2 r o) k = ix2 r k :=
  funext fun a => by match a with | ⟨0, _⟩ => rfl | ⟨1, _⟩ => rfl
theorem colOf_rhs51 (r : Fin 100000) (o k : Fin 64) : ridx_main_v51 (ix2 r o) k = ix2 k o :=
  funext fun a => by match a with | ⟨0, _⟩ => rfl | ⟨1, _⟩ => rfl
theorem rowOf_lhs54 (r : Fin 100000) (j : Fin 32) (k : Fin 64) : lidx_main_v54 (ix2 r j) k = ix2 r k :=
  funext fun a => by match a with | ⟨0, _⟩ => rfl | ⟨1, _⟩ => rfl
theorem colOf_rhs54 (r : Fin 100000) (j : Fin 32) (k : Fin 64) : ridx_main_v54 (ix2 r j) k = ix2 k j :=
  funext fun a => by match a with | ⟨0, _⟩ => rfl | ⟨1, _⟩ => rfl
theorem rowOf_lhs59 (r : Fin 100000) (u : Fin 1) (j : Fin 32) : lidx_main_v59 (ix2 r u) j = ix2 r j :=
  funext fun a => by match a with | ⟨0, _⟩ => rfl | ⟨1, _⟩ => rfl
theorem colOf_rhs59 (r : Fin 100000) (u : Fin 1) (j : Fin 32) : ridx_main_v59 (ix2 r u) j = ix2 j u :=
  funext fun a => by match a with | ⟨0, _⟩ => rfl | ⟨1, _⟩ => rfl
theorem degreeOf20 (r : Fin 100000) (k : Fin 64) : idx_main_v20 (ix2 r k) = ix2 r (0 : Fin 1) :=
  funext fun a => by match a with | ⟨0, _⟩ => rfl | ⟨1, _⟩ => rfl
theorem degreeOf45 (r : Fin 100000) (k : Fin 64) : idx_main_v45 (ix2 r k) = ix2 r (0 : Fin 1) :=
  funext fun a => by match a with | ⟨0, _⟩ => rfl | ⟨1, _⟩ => rfl
theorem biasOf24 (r : Fin 100000) (o : Fin 64) : idx_main_v23 (idx_main_v24 (ix2 r o)) = ix1 o :=
  funext fun a => by match a with | ⟨0, _⟩ => rfl
theorem biasOf49 (r : Fin 100000) (o : Fin 64) : idx_main_v48 (idx_main_v49 (ix2 r o)) = ix1 o :=
  funext fun a => by match a with | ⟨0, _⟩ => rfl
theorem biasOf56 (r : Fin 100000) (j : Fin 32) : idx_main_v55 (idx_main_v56 (ix2 r j)) = ix1 j :=
  funext fun a => by match a with | ⟨0, _⟩ => rfl
theorem biasOf61 (r : Fin 100000) (u : Fin 1) : idx_main_v60 (idx_main_v61 (ix2 r u)) = ix1 (0 : Fin 1) :=
  funext fun a => by match a with | ⟨0, _⟩ => rfl

/-- The reference's first stage is the first graph layer over all nodes. -/
theorem layer1_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v28 (F := Ideal) x0 x1 x2 x3 x4 = Cert.Sage.conv (meanAgg x1 x0) x0 x2 x4 (fun o => x3 (ix1 o)) := by
  funext i
  obtain ⟨r, o, rfl⟩ : ∃ (r : Fin 100000) (o : Fin 64), i = ix2 r o := ⟨i 0, i 1, eq_ix2 i⟩
  rw [val_main_v28_apply, val_main_v27_apply, val_main_v25_apply, val_main_v22_apply, val_main_v26_apply, val_main_v24_apply,
    val_main_v23_apply, val_main_call0_v0_apply, val_main_call0_cst_apply, biasOf24]
  have s1 : (∑ k : Fin 64, val_main_v21 (F := Ideal) x0 x1 (lidx_main_v22 (ix2 r o) k) * x2 (ridx_main_v22 (ix2 r o) k))
      = Cert.Sage.rowDot (meanAgg x1 x0) x2 r o :=
    Finset.sum_congr rfl fun k _ => by
      rw [rowOf_lhs, colOf_rhs, val_main_v21_apply, val_main_v20_apply, degreeOf20, sums1]
      unfold meanAgg Cert.Sage.meanDiv degree
      rw [Cert.Sage.ofEntries_ix2, Ideal.hostDivf_def]
  have s2 : (∑ k : Fin 64, x0 (lidx_main_v26 (ix2 r o) k) * x4 (ridx_main_v26 (ix2 r o) k)) = Cert.Sage.rowDot x0 x4 r o :=
    Finset.sum_congr rfl fun k _ => by rw [rowOf_lhs26, colOf_rhs26]
  rw [s1, s2]
  unfold Cert.Sage.conv
  rw [Cert.Sage.ofEntries_ix2]
  unfold Cert.Sage.convAt
  rw [Ideal.maximumf_def, Ideal.addf_def, Ideal.addf_def, Ideal.ofBits_def, Ideal.ofBits_zero_f32]

/-- The reference's second stage is the second graph layer over all nodes, on the first stage's output. -/
theorem layer2_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v53 (F := Ideal) x0 x1 x2 x3 x4 x5 x6 x7
      = Cert.Sage.conv (meanAgg x1 (val_main_v28 (F := Ideal) x0 x1 x2 x3 x4)) (val_main_v28 (F := Ideal) x0 x1 x2 x3 x4) x5 x7
          (fun o => x6 (ix1 o)) := by
  funext i
  obtain ⟨r, o, rfl⟩ : ∃ (r : Fin 100000) (o : Fin 64), i = ix2 r o := ⟨i 0, i 1, eq_ix2 i⟩
  rw [val_main_v53_apply, val_main_v52_apply, val_main_v50_apply, val_main_v47_apply, val_main_v51_apply, val_main_v49_apply,
    val_main_v48_apply, val_main_call1_v0_apply, val_main_call1_cst_apply, biasOf49]
  have s1 : (∑ k : Fin 64, val_main_v46 (F := Ideal) x0 x1 x2 x3 x4 (lidx_main_v47 (ix2 r o) k) * x5 (ridx_main_v47 (ix2 r o) k))
      = Cert.Sage.rowDot (meanAgg x1 (val_main_v28 (F := Ideal) x0 x1 x2 x3 x4)) x5 r o :=
    Finset.sum_congr rfl fun k _ => by
      rw [rowOf_lhs47, colOf_rhs47, val_main_v46_apply, val_main_v45_apply, degreeOf45, sums2, degree2]
      unfold meanAgg Cert.Sage.meanDiv
      rw [Cert.Sage.ofEntries_ix2, Ideal.hostDivf_def]
  have s2 : (∑ k : Fin 64, val_main_v28 (F := Ideal) x0 x1 x2 x3 x4 (lidx_main_v51 (ix2 r o) k) * x7 (ridx_main_v51 (ix2 r o) k))
      = Cert.Sage.rowDot (val_main_v28 (F := Ideal) x0 x1 x2 x3 x4) x7 r o :=
    Finset.sum_congr rfl fun k _ => by rw [rowOf_lhs51, colOf_rhs51]
  rw [s1, s2]
  unfold Cert.Sage.conv
  rw [Cert.Sage.ofEntries_ix2]
  unfold Cert.Sage.convAt
  rw [Ideal.maximumf_def, Ideal.addf_def, Ideal.addf_def, Ideal.ofBits_def, Ideal.ofBits_zero_f32]

/-- The reference's last stage is the read-out over all nodes, on the second stage's output. -/
theorem readout_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x32, .f32⟩ : BufTy).Contents (Elt Ideal)) (x9 : (⟨S32, .f32⟩ : BufTy).Contents (Elt Ideal)) (x10 : (⟨S32x1, .f32⟩ : BufTy).Contents (Elt Ideal)) (x11 : (⟨S1, .f32⟩ : BufTy).Contents (Elt Ideal)) :
    val_main_v68 (F := Ideal) x0 x1 x2 x3 x4 x5 x6 x7 x8 x9 x10 x11
      = Cert.Sage.ofEntries fun r _ => Cert.Sage.readoutAt (val_main_v53 (F := Ideal) x0 x1 x2 x3 x4 x5 x6 x7) x8 (fun j => x9 (ix1 j)) x10
          (fun v => x11 (ix1 v)) r := by
  funext i
  obtain ⟨r, u, rfl⟩ : ∃ (r : Fin 100000) (u : Fin 1), i = ix2 r u := ⟨i 0, i 1, eq_ix2 i⟩
  have hu : u = 0 := Subsingleton.elim _ _
  subst hu
  rw [val_main_v68_apply, val_main_v67_apply, val_main_cst_11_apply, val_main_v66_apply, val_main_v65_apply, val_main_cst_10_apply,
    val_main_v64_apply, val_main_v63_apply, val_main_v62_apply, val_main_v59_apply, val_main_v61_apply, val_main_v60_apply, biasOf61]
  have s : (∑ j : Fin 32, val_main_v58 (F := Ideal) x0 x1 x2 x3 x4 x5 x6 x7 x8 x9 (lidx_main_v59 (ix2 r (0 : Fin 1)) j)
        * x10 (ridx_main_v59 (ix2 r (0 : Fin 1)) j))
      = Cert.Sage.rowDot (Cert.Sage.ofEntries fun r j =>
          max (Cert.Sage.rowDot (val_main_v53 (F := Ideal) x0 x1 x2 x3 x4 x5 x6 x7) x8 r j + x9 (ix1 j)) 0) x10 r 0 :=
    Finset.sum_congr rfl fun j _ => by
      have sj : (∑ k : Fin 64, val_main_v53 (F := Ideal) x0 x1 x2 x3 x4 x5 x6 x7 (lidx_main_v54 (ix2 r j) k) * x8 (ridx_main_v54 (ix2 r j) k))
          = Cert.Sage.rowDot (val_main_v53 (F := Ideal) x0 x1 x2 x3 x4 x5 x6 x7) x8 r j :=
        Finset.sum_congr rfl fun k _ => by rw [rowOf_lhs54, colOf_rhs54]
      rw [rowOf_lhs59, colOf_rhs59, Cert.Sage.ofEntries_ix2, val_main_v58_apply, val_main_v57_apply, val_main_v54_apply, val_main_v56_apply,
        val_main_v55_apply, biasOf56, val_main_call2_v0_apply, val_main_call2_cst_apply, sj, Ideal.maximumf_def, Ideal.addf_def,
        Ideal.ofBits_def, Ideal.ofBits_zero_f32]
  rw [s, Cert.Sage.ofEntries_ix2]
  unfold Cert.Sage.readoutAt Ideal.logistic
  rw [Ideal.hostDivf_def, Ideal.addf_def, Ideal.addf_def, Ideal.hostUnary_exp_def, Ideal.hostNegf_def, Ideal.negf_def, Ideal.ofBits_def,
    Ideal.ofBits_one_f32]

/-- THE REFERENCE'S RESULT is the network over all nodes, with the mean formed by division. -/
theorem result_eq (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64x32, .f32⟩ : BufTy).Contents (Elt Ideal)) (x9 : (⟨S32, .f32⟩ : BufTy).Contents (Elt Ideal)) (x10 : (⟨S32x1, .f32⟩ : BufTy).Contents (Elt Ideal)) (x11 : (⟨S1, .f32⟩ : BufTy).Contents (Elt Ideal)) :
    val_main_v68 (F := Ideal) x0 x1 x2 x3 x4 x5 x6 x7 x8 x9 x10 x11
      = Cert.Sage.net (meanAgg x1) x0 x2 x4 (fun o => x3 (ix1 o)) x5 x7 (fun o => x6 (ix1 o)) x8 (fun j => x9 (ix1 j)) x10
          (fun v => x11 (ix1 v)) := by
  unfold Cert.Sage.net Cert.Sage.tail Cert.Sage.tailAt
  rw [readout_eq, layer2_eq, layer1_eq]

end Cert.ReferenceIdeal.RefValue

end
-- ==== Proof.SameMean.lean ====
/-
  The kernel's and the reference's mean aggregations are one operator.

  Both programs compute the wrapped source indices, the destination indices, the neighbour sums of a node array and the
  in-degree count by the same host operations of the edge list, so those terms coincide. They differ in one step: the
  kernel multiplies the neighbour sums by the reciprocal `1 / c` of the clamped in-degree `c = max deg 1`, the reference
  divides them by `c`. Since `c ≥ 1`, it is not zero, and off zero both are the sum times `c⁻¹` on every extended real.
-/
import proofs.«178451_j58016418234844_2_alg».proof.Proof.KernelValue
import proofs.«178451_j58016418234844_2_alg».proof.Proof.ReferenceValue
import Idealize.ShloMosaic.Lib.IdealHost

set_option maxRecDepth 16384

noncomputable section

namespace Cert.Proof.Mean

open Idealize.ShloMosaic Idealize.ShloMosaic.ValueIdx
open Cert.KernelIdeal.Whole (Edges)

set_option maxHeartbeats 50000 in
/-- The wrapped source column is one term in both programs. -/
theorem src_eq (E : Edges) : Cert.KernelIdeal.Whole.srcCol E = Cert.ReferenceIdeal.Read.val_main_v9 (F := Ideal) E := rfl

set_option maxHeartbeats 50000 in
/-- The destination column is one term in both programs. -/
theorem dst_eq (E : Edges) : Cert.KernelIdeal.Whole.dstCol E = Cert.ReferenceIdeal.Read.val_main_v12 (F := Ideal) E := rfl

set_option maxHeartbeats 50000 in
/-- The neighbour sums are one operator in both programs. -/
theorem agg_eq (E : Edges) (y : Cert.Sage.Arr 100000 64) :
    Cert.KernelIdeal.Whole.agg E y = Cert.ReferenceIdeal.RefValue.agg E y := by
  unfold Cert.KernelIdeal.Whole.agg Cert.ReferenceIdeal.RefValue.agg
  rw [src_eq, dst_eq]
  rfl

set_option maxHeartbeats 50000 in
/-- The clamped in-degree is one term in both programs. -/
theorem degree_eq (E : Edges) : Cert.KernelIdeal.Whole.clampedDegree E = Cert.ReferenceIdeal.RefValue.degree E := by
  unfold Cert.KernelIdeal.Whole.clampedDegree Cert.ReferenceIdeal.RefValue.degree
  rw [dst_eq]
  rfl

/-- The clamped in-degree is at least one, so it is not zero. -/
theorem degree_ne_zero (E : Edges) (j : (⟨2, ![100000, 1]⟩ : Shape).Idx) : Cert.ReferenceIdeal.RefValue.degree E j ≠ 0 := by
  unfold Cert.ReferenceIdeal.RefValue.degree
  rw [Cert.ReferenceIdeal.Read.val_main_v19_apply, Cert.ReferenceIdeal.Read.val_main_v18_apply,
    Cert.ReferenceIdeal.Read.val_main_cst_3_apply, Ideal.maximumf_def, Ideal.ofBits_def, Ideal.ofBits_one_f32]
  exact (lt_of_lt_of_le zero_lt_one (le_max_right _ _)).ne'

/-- The kernel's reciprocal column is one over the reference's clamped in-degree. -/
theorem inv_eq (E : Edges) :
    Cert.KernelIdeal.Whole.invDegree E = fun j => Ideal.div 1 (Cert.ReferenceIdeal.RefValue.degree E j) := by
  funext j
  rw [Cert.KernelIdeal.Whole.invDegree_apply, degree_eq]

/-- Neighbour sums times the reciprocal clamped in-degree are neighbour sums over the clamped in-degree. -/
theorem meanAgg_eq (E : Edges) : Cert.KernelIdeal.Whole.meanAgg E = Cert.ReferenceIdeal.RefValue.meanAgg E := by
  funext y
  unfold Cert.KernelIdeal.Whole.meanAgg Cert.ReferenceIdeal.RefValue.meanAgg
  rw [agg_eq, inv_eq, Cert.Sage.meanMul_eq_meanDiv _ _ (degree_ne_zero E)]

end Cert.Proof.Mean

end
-- ==== Proof.lean ====
/-
  A two-layer mean-aggregating graph network with a two-layer read-out over 100000 nodes and 1600000 edges: a kernel
  program (host gather / scatter-add for the neighbour sums, two tiled calls for the dense work) against a plain
  reference, equal on the extended reals.

  The three frames: the two kernel programs' frames are generated whole; the reference has no call, and its frame is
  its generated run with the result dropped. The idealization rewrote no operation, so `preserves` has nothing to state.

  The value claim. The kernel's run ends with its result buffer at the second call's output array; tile by tile that
  array is the second graph layer and the read-out over all nodes, of the arrays the second call finds; those are the
  neighbour sums of the first call's output, the reciprocal clamped in-degree and that output, which tile by tile is the
  first graph layer over all nodes. So the kernel's result is the network with each mean formed as
  `sum · (1 / max deg 1)`. The reference's result, read one operation at a time, is the same network with each mean formed
  as `sum / max deg 1`. Off a zero divisor — and `max deg 1 ≥ 1` — these are one extended real, finite sum or not; the
  changes of float format are the identity, the logistic function is `1 / (1 + exp (−y))`, and every other step is the
  same sum, maximum or product on both sides. No finiteness of the inputs is used.
-/
import proofs.«178451_j58016418234844_2_alg».proof.Defs
import proofs.«178451_j58016418234844_2_alg».proof.Proof.Gen.Kernel
import proofs.«178451_j58016418234844_2_alg».proof.Proof.Gen.Kernel.Skeleton
import proofs.«178451_j58016418234844_2_alg».proof.Proof.Gen.Kernel.Launch
import proofs.«178451_j58016418234844_2_alg».proof.Proof.Gen.Kernel.Points
import proofs.«178451_j58016418234844_2_alg».proof.Proof.Gen.Kernel.Frame
import proofs.«178451_j58016418234844_2_alg».proof.Proof.Gen.KernelIdeal
import proofs.«178451_j58016418234844_2_alg».proof.Proof.Gen.KernelIdeal.Skeleton
import proofs.«178451_j58016418234844_2_alg».proof.Proof.Gen.KernelIdeal.Launch
import proofs.«178451_j58016418234844_2_alg».proof.Proof.Gen.KernelIdeal.Points
import proofs.«178451_j58016418234844_2_alg».proof.Proof.Gen.KernelIdeal.Frame
import proofs.«178451_j58016418234844_2_alg».proof.Proof.Gen.ReferenceIdeal
import proofs.«178451_j58016418234844_2_alg».proof.Proof.Gen.Pre_finite_inputs
import proofs.«178451_j58016418234844_2_alg».proof.Proof.Gen.ReferenceIdeal.Run
import proofs.«178451_j58016418234844_2_alg».proof.Proof.Gen.ReferenceIdeal.Read
import proofs.«178451_j58016418234844_2_alg».proof.Proof.KernelRun
import proofs.«178451_j58016418234844_2_alg».proof.Proof.KernelValue
import proofs.«178451_j58016418234844_2_alg».proof.Proof.ReferenceValue
import proofs.«178451_j58016418234844_2_alg».proof.Proof.SameMean
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end at the network over all nodes: the kernel with the mean
    formed by the reciprocal, the reference by division, one operator on node arrays. -/
theorem algebraic : Cert.algebraic_KernelIdeal_ReferenceIdeal := by
  intro m ρ m' ρ' _ hagree
  refine ⟨fun c => Cert.KernelIdeal.Gen.W4 (F := Ideal) m ρ c (Proc.devRef .tc Cert.KernelIdeal.main_v40),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  show Cert.ReferenceIdeal.Value.res_main_v68 m' c = Cert.KernelIdeal.Gen.W4 (F := Ideal) m ρ c (Proc.devRef .tc Cert.KernelIdeal.main_v40)
  rw [Cert.ReferenceIdeal.Read.val_main_v68_eq, a0, a1, a2, a3, a4, a5, a6, a7, a8, a9, a10, a11, Cert.ReferenceIdeal.RefValue.result_eq,
    Cert.KernelIdeal.Whole.result_eq, Cert.Proof.Mean.meanAgg_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
